-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40x128 .f32) (main_arg5 : FVec F S40 .f32) (main_arg6 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S40x128 .f32 := Host.absf main_arg4
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg6
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S40x128 .f32) (main_arg5 : FVec F S40 .f32) (main_arg6 : FVec F S40x128 .f32) (main_arg7 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S1x128 : Shape := ⟨2, ![1, 128]⟩
abbrev S128x40 : Shape := ⟨2, ![128, 40]⟩
abbrev S1x40 : Shape := ⟨2, ![1, 40]⟩
abbrev S800000x128 : Shape := ⟨2, ![800000, 128]⟩
abbrev S100000x1 : Shape := ⟨2, ![100000, 1]⟩
abbrev S5000x128 : Shape := ⟨2, ![5000, 128]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 106
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S40x128, .f32⟩
  | .hbm, ⟨5, _⟩ => ⟨S40, .f32⟩
  | .hbm, ⟨6, _⟩ => ⟨S40x128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S128x40, .f32⟩
  | .hbm, ⟨35, _⟩ => ⟨S128x40, .f32⟩
  | .hbm, ⟨36, _⟩ => ⟨S1x40, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S100000x128, .f32⟩
  | .hbm, ⟨65, _⟩ => ⟨S800000x1, .i32⟩
  | .hbm, ⟨66, _⟩ => ⟨S100000x128, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S_, .f32⟩
  | .hbm, ⟨81, _⟩ => ⟨S100000x128, .f32⟩
  | .hbm, ⟨82, _⟩ => ⟨S800000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .f32⟩
  | .hbm, ⟨98, _⟩ => ⟨S100000x128, .f32⟩
  | .hbm, ⟨99, _⟩ => ⟨S800000x1, .i32⟩
  | .hbm, ⟨100, _⟩ => ⟨S100000x128, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x40, .f32⟩
  | .hbm, ⟨105, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x40, .f32⟩
  | .local _ .vmem, ⟨26, _⟩ => ⟨S1x40, .f32⟩
  | .local _ .vmem, ⟨27, _⟩ => ⟨S128x40, .f32⟩
  | .local _ .vmem, ⟨28, _⟩ => ⟨S5000x40, .f32⟩
  | .local _ .vmem, ⟨29, _⟩ => ⟨S5000x40, .f32⟩
  | .local _ .vmem, ⟨30, _⟩ => ⟨S5000x40, .f32⟩
  | .local _ .vmem, ⟨31, _⟩ => ⟨S5000x40, .f32⟩
  | .local _ .vmem, ⟨32, _⟩ => ⟨S5000x40, .f32⟩
  | .local _ .vmem, ⟨33, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  transposes_S128x128_S128x128_1_0 : S128x128.Transposes [1, 0] S128x128
  shapeCasts_S128_S1x128 : S128.ShapeCasts S1x128
  transposes_S40x128_S128x40_1_0 : S40x128.Transposes [1, 0] S128x40
  shapeCasts_S40_S1x40 : S40.ShapeCasts S1x40
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x40.size a ≤ S128x40.size a
  hwx3_2 : ∀ i : grid3.Coords, EltTy.bits .f32 = 32 ∨ (Rect.block (s := S128x40) S128x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x40.size a ≤ S128x40.size a
  hwx3_4 : ∀ i : grid3.Coords, EltTy.bits .f32 = 32 ∨ (Rect.block (s := S128x40) S128x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S100000x40.size a
  hwx3_5 : ∀ i : grid3.Coords, EltTy.bits .f32 = 32 ∨ (Rect.block (s := S100000x40) S5000x40.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S100000x40.size a
  hwx4_0 : ∀ i : grid4.Coords, EltTy.bits .f32 = 32 ∨ (Rect.block (s := S100000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x40.size a ≤ S100000x40.size a
  hwx4_1 : ∀ i : grid4.Coords, EltTy.bits .f32 = 32 ∨ (Rect.block (s := S100000x40) S5000x40.size (cc4_transform_1 i) (hinb4_1 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S128x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S128x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S5000x40.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S40x128, .f32⟩
  | 5 => ⟨S40, .f32⟩
  | 6 => ⟨S40x128, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S100000, .f32⟩
  | 16 => ⟨S800000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S100000x128, .f32⟩
  | 42 => ⟨S800000x1, .i32⟩
  | 43 => ⟨S100000x128, .f32⟩
  | 44 => ⟨S100000x1, .f32⟩
  | 45 => ⟨S100000x128, .f32⟩
  | 46 => ⟨S100000x128, .f32⟩
  | 47 => ⟨S100000x128, .f32⟩
  | 48 => ⟨S100000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S100000x128, .f32⟩
  | 60 => ⟨S800000x1, .i32⟩
  | 61 => ⟨S100000x128, .f32⟩
  | 62 => ⟨S100000x1, .f32⟩
  | 63 => ⟨S100000x128, .f32⟩
  | 64 => ⟨S100000x128, .f32⟩
  | 65 => ⟨S_, .f32⟩
  | 66 => ⟨S100000x128, .f32⟩
  | 67 => ⟨S100000x128, .i1⟩
  | 68 => ⟨S_, .f32⟩
  | 69 => ⟨S_, .f32⟩
  | 70 => ⟨S100000x128, .f32⟩
  | 71 => ⟨S100000x128, .f32⟩
  | 72 => ⟨S100000x128, .f32⟩
  | 73 => ⟨S128x128, .f32⟩
  | 74 => ⟨S100000x128, .f32⟩
  | 75 => ⟨S1x128, .f32⟩
  | 76 => ⟨S100000x128, .f32⟩
  | 77 => ⟨S100000x128, .f32⟩
  | 78 => ⟨S128x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S100000x128, .f32⟩
  | 95 => ⟨S800000x1, .i32⟩
  | 96 => ⟨S100000x128, .f32⟩
  | 97 => ⟨S100000x1, .f32⟩
  | 98 => ⟨S100000x128, .f32⟩
  | 99 => ⟨S100000x128, .f32⟩
  | 100 => ⟨S100000x128, .f32⟩
  | 101 => ⟨S100000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S100000x128, .f32⟩
  | 113 => ⟨S800000x1, .i32⟩
  | 114 => ⟨S100000x128, .f32⟩
  | 115 => ⟨S100000x1, .f32⟩
  | 116 => ⟨S100000x128, .f32⟩
  | 117 => ⟨S100000x128, .f32⟩
  | 118 => ⟨S_, .f32⟩
  | 119 => ⟨S100000x128, .f32⟩
  | 120 => ⟨S100000x128, .i1⟩
  | 121 => ⟨S_, .f32⟩
  | 122 => ⟨S_, .f32⟩
  | 123 => ⟨S100000x128, .f32⟩
  | 124 => ⟨S100000x128, .f32⟩
  | 125 => ⟨S100000x128, .f32⟩
  | 126 => ⟨S128x40, .f32⟩
  | 127 => ⟨S100000x40, .f32⟩
  | _ => ⟨S100000x128, .f32⟩

abbrev hbmTy0_1 (i : Nat) : BufTy := match i % 128 with
  | 0 => ⟨S1x40, .f32⟩
  | 1 => ⟨S100000x40, .f32⟩
  | 2 => ⟨S100000x40, .f32⟩
  | 3 => ⟨S128x40, .f32⟩
  | 4 => ⟨S100000x40, .f32⟩
  | 5 => ⟨S100000x40, .f32⟩
  | 6 => ⟨S_, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x40, .f32⟩
  | 13 => ⟨S100000x40, .f32⟩
  | 14 => ⟨S100000x40, .f32⟩
  | 15 => ⟨S_, .f32⟩
  | 16 => ⟨S100000, .f32⟩
  | 17 => ⟨S100000x1, .f32⟩
  | 18 => ⟨S100000x1, .f32⟩
  | 19 => ⟨S100000x40, .f32⟩
  | 20 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_call1_v0 : Ref sig .tc := ⟨.hbm, 69, rfl⟩
abbrev main_call1_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_cst : Ref sig .tc := ⟨.hbm, 81, rfl⟩
abbrev main_call2_v0 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_call3_v0 : Ref sig .tc := ⟨.hbm, 122, rfl⟩
abbrev main_call3_v1 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call4_cst : Ref sig .tc := ⟨.hbm, 134, rfl⟩
abbrev main_call4_v0 : Ref sig .tc := ⟨.hbm, 135, rfl⟩
abbrev main_call4_cst_0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_cst_1 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_v96 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.ResultRun.lean ====
/-
  The idealized kernel's run with its RESULT read: every weakly fair execution of @main terminates, nothing faulting, with
  the result array and the argument arrays at the contents the last segment boundary holds for them. The five regions and
  the host stretches between them are run by the several-region launch theorem over the generated segments; of the final
  thread state, which holds every unscoped buffer at the last boundary's contents, this reads the result's buffer as well
  as the arguments'.
-/
import proofs.«114936_j57904749084729_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer `main_v77` at the last boundary's contents. -/
theorem run : θ_run defs (onTc (τ := τ) (main (F := F))) ⟨m, fun _ => 0, ρ⟩ (fun r => ∀ c : Dev nD,
      r.2.mem ((c.tc : Thread nD τ).loc main_v77) = W11 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v77 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.ResultRun

end
-- ==== Proof.Spec.lean ====
/-
  The two-layer mean/variance graph convolution, as ONE function of the eight argument arrays, built from the whole-array
  operations both programs apply on the host: the edge list's two rows; the inverse in-degree; the neighbourhood mean
  (gather the rows named by the edge sources, add them into the rows named by the edge targets, scale by the inverse
  degree); the centred square; the dense step (the square root of the aggregated squares, zero replaced by 1e-16, times
  one weight matrix, plus the bias row, plus the features times the other weight matrix); and the row-wise log-softmax.
  Stated for any float instance: nothing here is computed, the terms are only composed.
-/
import proofs.«114936_j57904749084729_1_alg».proof.Proof.Gen.ReferenceIdeal

noncomputable section

namespace Cert.Sage

open Cert.ReferenceIdeal Cert.ReferenceIdeal.Gen Idealize.ShloMosaic Idealize.ShloMosaic.TcCoe Idealize.SL.Sem

variable {F : FTy → Type} [FloatOps F]

/-- Row `r` of the 2 × E edge list as a vector of E node numbers. -/
def edgeRow0 (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
def edgeRow1 (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The in-degree of every node: ones added into the rows the edge targets name. -/
def degree (row : (⟨S800000, .i32⟩ : BufTy).Contents (Elt F)) : (⟨S100000, .f32⟩ : BufTy).Contents (Elt F) :=
  Host.scatterAdd scatter_S100000_S800000x1_S800000_n_0_0_1 (broadcastInDim S100000 ![] bcast_S_S100000 (constant S_ .f32 0x00000000#32))
    (broadcastInDim S800000x1 ![0] bcast_S800000_S800000x1_0 row) (broadcastInDim S800000 ![] bcast_S_S800000 (constant S_ .f32 0x3F800000#32))

/-- `1 / max(deg, 1)` where the degree is positive, `0` elsewhere. -/
def degInv (row : (⟨S800000, .i32⟩ : BufTy).Contents (Elt F)) : (⟨S100000, .f32⟩ : BufTy).Contents (Elt F) :=
  select (cmpf .ogt (degree row) (broadcastInDim S100000 ![] bcast_S_S100000 (constant S_ .f32 0x00000000#32)))
    (Host.divf (broadcastInDim S100000 ![] bcast_S_S100000 (constant S_ .f32 0x3F800000#32))
      (maximumf (degree row) (broadcastInDim S100000 ![] bcast_S_S100000 (constant S_ .f32 0x3F800000#32))))
    (broadcastInDim S100000 ![] bcast_S_S100000 (id (constant S_ .f32 0x00000000#32)))

/-- A source node number, counted from the end when negative. -/
def wrapIdx (col : (⟨S800000, .i32⟩ : BufTy).Contents (Elt F)) : (⟨S800000, .i32⟩ : BufTy).Contents (Elt F) :=
  select (cmpi .slt col (broadcastInDim S800000 ![] bcast_S_S800000 (constantI S_ 32 0#32)))
    (addi col (broadcastInDim S800000 ![] bcast_S_S800000 (constantI S_ 32 100000#32))) col

/-- The neighbourhood mean of the node features `h`: for every edge the source's row is added into the target's row,
    and every row is scaled by the inverse degree. -/
def agg (row col : (⟨S800000, .i32⟩ : BufTy).Contents (Elt F)) (dinv : (⟨S100000, .f32⟩ : BufTy).Contents (Elt F))
    (h : (⟨S100000x128, .f32⟩ : BufTy).Contents (Elt F)) : (⟨S100000x128, .f32⟩ : BufTy).Contents (Elt F) :=
  mulf (Host.scatterAdd scatter_S100000x128_S800000x1_S800000x128_1_0_0_1 (broadcastInDim S100000x128 ![] bcast_S_S100000x128 (constant S_ .f32 0x00000000#32))
      (broadcastInDim S800000x1 ![0] bcast_S800000_S800000x1_0 row)
      (Host.gather gather_S100000x128_S800000x1_S800000x128_1_0_n_n_0_1_1128 h (broadcastInDim S800000x1 ![0] bcast_S800000_S800000x1_0 (wrapIdx col))))
    (broadcastInDim S100000x128 ![0, 1] bcast_S100000x1_S100000x128_0_1 (broadcastInDim S100000x1 ![0] bcast_S100000_S100000x1_0 dinv))

/-- The centred square `(x - μ)²`, entry by entry. -/
def csq (x mu : (⟨S100000x128, .f32⟩ : BufTy).Contents (Elt F)) : (⟨S100000x128, .f32⟩ : BufTy).Contents (Elt F) :=
  mulf (subf x mu) (subf x mu)

/-- The spread: the square root of the aggregated squares, an exact zero replaced by 1e-16 first. -/
def spread (s : (⟨S100000x128, .f32⟩ : BufTy).Contents (Elt F)) : (⟨S100000x128, .f32⟩ : BufTy).Contents (Elt F) :=
  Host.sqrt (select (cmpf .oeq s (broadcastInDim S100000x128 ![] bcast_S_S100000x128 (constant S_ .f32 0x00000000#32)))
    (broadcastInDim S100000x128 ![] bcast_S_S100000x128 (id (constant S_ .f32 0x24E69595#32))) s)

/-- The first dense step, with its rectifier: `max(spread(s) · Wl + b + x · Wr, 0)`. -/
def dense1 (s x : (⟨S100000x128, .f32⟩ : BufTy).Contents (Elt F)) (wl : (⟨S128x128, .f32⟩ : BufTy).Contents (Elt F))
    (b : (⟨S1x128, .f32⟩ : BufTy).Contents (Elt F)) (wr : (⟨S128x128, .f32⟩ : BufTy).Contents (Elt F)) :
    (⟨S100000x128, .f32⟩ : BufTy).Contents (Elt F) :=
  maximumf (addf (addf (Host.dotGeneral dot_S100000x128_S128x128_S100000x128_1_0_0_1_n_n none (spread s) wl)
      (broadcastInDim S100000x128 ![0, 1] bcast_S1x128_S100000x128_0_1 b))
      (Host.dotGeneral dot_S100000x128_S128x128_S100000x128_1_0_0_1_n_n none x wr))
    (broadcastInDim S100000x128 ![] bcast_S_S100000x128 (constant S_ .f32 0x00000000#32))

/-- The second dense step, onto the 40 classes, without rectifier. -/
def dense2 (s x : (⟨S100000x128, .f32⟩ : BufTy).Contents (Elt F)) (wl : (⟨S128x40, .f32⟩ : BufTy).Contents (Elt F))
    (b : (⟨S1x40, .f32⟩ : BufTy).Contents (Elt F)) (wr : (⟨S128x40, .f32⟩ : BufTy).Contents (Elt F)) :
    (⟨S100000x40, .f32⟩ : BufTy).Contents (Elt F) :=
  addf (addf (Host.dotGeneral dot_S100000x128_S128x40_S100000x40_1_0_0_1_n_n none (spread s) wl)
      (broadcastInDim S100000x40 ![0, 1] bcast_S1x40_S100000x40_0_1 b))
    (Host.dotGeneral dot_S100000x128_S128x40_S100000x40_1_0_0_1_n_n none x wr)

/-- Every row's maximum over the 40 classes. -/
def rowMax (z : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x40_S100000_d1 h_S_)

/-- Every entry minus its row's maximum. -/
def shifted (z : (⟨S100000x40, .f32⟩ : BufTy).Contents (Elt F)) : (⟨S100000x40, .f32⟩ : BufTy).Contents (Elt F) :=
  subf z (broadcastInDim S100000x40 ![0, 1] bcast_S100000x1_S100000x40_0_1 (broadcastInDim S100000x1 ![0] bcast_S100000_S100000x1_0 (rowMax z)))

/-- The row-wise log-softmax: the shifted entry minus the logarithm of the row's sum of exponentials of shifted entries. -/
def logSoftmax (z : (⟨S100000x40, .f32⟩ : BufTy).Contents (Elt F)) : (⟨S100000x40, .f32⟩ : BufTy).Contents (Elt F) :=
  subf (shifted z) (broadcastInDim S100000x40 ![0, 1] bcast_S100000x1_S100000x40_0_1 (Host.log (broadcastInDim S100000x1 ![0] bcast_S100000_S100000x1_0
    (Host.reduceAdd (Host.exp (shifted z)) (constant S_ .f32 0x00000000#32) reducesTo_S100000x40_S100000_d1 h_S_))))

/-- One layer's aggregated squares: the neighbourhood mean of the squares centred at the neighbourhood mean. -/
def moment (row col : (⟨S800000, .i32⟩ : BufTy).Contents (Elt F)) (dinv : (⟨S100000, .f32⟩ : BufTy).Contents (Elt F))
    (h : (⟨S100000x128, .f32⟩ : BufTy).Contents (Elt F)) : (⟨S100000x128, .f32⟩ : BufTy).Contents (Elt F) :=
  agg row col dinv (csq h (agg row col dinv h))

/-- The hidden features after the first layer, the bias given as a 1 × 128 row. -/
def hidden (x0 : (⟨S100000x128, .f32⟩ : BufTy).Contents (Elt F)) (x1 : (⟨S128x128, .f32⟩ : BufTy).Contents (Elt F))
    (b1 : (⟨S1x128, .f32⟩ : BufTy).Contents (Elt F)) (x3 : (⟨S128x128, .f32⟩ : BufTy).Contents (Elt F))
    (x7 : (⟨S2x800000, .i32⟩ : BufTy).Contents (Elt F)) : (⟨S100000x128, .f32⟩ : BufTy).Contents (Elt F) :=
  dense1 (moment (edgeRow0 x7) (edgeRow1 x7) (degInv (edgeRow0 x7)) x0) x0
    (transpose S128x128 [1, 0] x1 transposes_S128x128_S128x128_1_0) b1 (transpose S128x128 [1, 0] x3 transposes_S128x128_S128x128_1_0)

/-- The network's result from the hidden features, the bias given as a 1 × 40 row. -/
def output (h : (⟨S100000x128, .f32⟩ : BufTy).Contents (Elt F)) (x4 : (⟨S40x128, .f32⟩ : BufTy).Contents (Elt F))
    (b2 : (⟨S1x40, .f32⟩ : BufTy).Contents (Elt F)) (x6 : (⟨S40x128, .f32⟩ : BufTy).Contents (Elt F))
    (x7 : (⟨S2x800000, .i32⟩ : BufTy).Contents (Elt F)) : (⟨S100000x40, .f32⟩ : BufTy).Contents (Elt F) :=
  logSoftmax (dense2 (moment (edgeRow0 x7) (edgeRow1 x7) (degInv (edgeRow0 x7)) h) h
    (transpose S128x40 [1, 0] x4 transposes_S40x128_S128x40_1_0) b2 (transpose S128x40 [1, 0] x6 transposes_S40x128_S128x40_1_0))

end Cert.Sage

end
-- ==== Proof.Square.lean ====
/-
  The two centred-square regions of the idealized kernel, each read as a whole-array function. A region walks the
  100000 rows in twenty blocks of 5000; at a block the body subtracts the mean's block from the features' block and squares
  the difference entry by entry. Since the operations are entry-wise, block `t` of the result is block `t` of the whole-array
  centred square, and the twenty blocks fill the array.
-/
import proofs.«114936_j57904749084729_1_alg».proof.Proof.Gen.KernelIdeal.Frame
import proofs.«114936_j57904749084729_1_alg».proof.Proof.Spec
import Idealize.ShloMosaic.Lib.Pipeline.Value

set_option maxRecDepth 16384

noncomputable section

/-! ## Region 0: the centred square of `main_arg0` about `main_v33`, written to `main_v34` -/

namespace Cert.KernelIdeal.Square0

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem off_zero : (![0, 0] : Fin 2 → Nat) = fun _ => 0 := funext fun a => by fin_cases a <;> rfl

/-- The body's arithmetic on two row blocks: the difference, squared, entry by entry. -/
theorem payload_eq (x0 x1 : Vec F S5000x128 .f32) : k0_pay1 x0 x1 = mulf (subf x0 x1) (subf x0 x1) := by
  simp only [k0_pay1, shapeCast_self]

/-- All three windows step through the rows together: at grid point `t` each is at row block `t`, column block 0. -/
theorem blocks_at : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point `t` writes back is rows `5000 t … 5000 t + 4999` of the whole-array centred square. -/
theorem flushed_eq (c : Dev nD) (t : Fin cfg0.N) :
    (dat0 V c).flushed 2 t = ((cfg0.win 2).blk t).view.read (Elt F) (Cert.Sage.csq (V c main_arg0) (V c main_v33)) := by
  show (cfg0.win 2).cut (grid0.coords t) ((dat0 V c).after 2 t) = _
  rw [after0_2]
  unfold out0_2
  rw [View.canon_unit_zero off_zero]
  simp only [View.ld_unit_zero (S := S5000x128) off_zero]
  rw [payload_eq]
  obtain ⟨e0, e1, e2, e3, e4, e5⟩ := blocks_at t
  funext j
  show FloatOps.mulf (FloatOps.subf (V c main_arg0 (((cfg0.win 0).blk t).view.emb j)) (V c main_v33 (((cfg0.win 1).blk t).view.emb j)))
        (FloatOps.subf (V c main_arg0 (((cfg0.win 0).blk t).view.emb j)) (V c main_v33 (((cfg0.win 1).blk t).view.emb j)))
      = FloatOps.mulf (FloatOps.subf (V c main_arg0 (((cfg0.win 2).blk t).view.emb j)) (V c main_v33 (((cfg0.win 2).blk t).view.emb j)))
        (FloatOps.subf (V c main_arg0 (((cfg0.win 2).blk t).view.emb j)) (V c main_v33 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An index of the array lies in point `t`'s block iff each coordinate lies in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Row `r` of the array is written by grid point `r / 5000`: the twenty row blocks fill the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5⟩ := blocks_at ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- THE ARRAY the region leaves: the centred square of its two input arrays as the region finds them. -/
theorem final (c : Dev nD) : (dat0 V c).arrAt 2 cfg0.N = Cert.Sage.csq (V c main_arg0) (V c main_v33) :=
  (dat0 V c).arrAt_eq_of_cover 2 _ (fun t _ => flushed_eq V c t) cover

end Cert.KernelIdeal.Square0

/-! ## Region 2: the centred square of `main_v48` about `main_v61`, written to `main_v62` -/

namespace Cert.KernelIdeal.Square2

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem off_zero : (![0, 0] : Fin 2 → Nat) = fun _ => 0 := funext fun a => by fin_cases a <;> rfl

/-- The body's arithmetic on two row blocks: the difference, squared, entry by entry. -/
theorem payload_eq (x0 x1 : Vec F S5000x128 .f32) : k2_pay1 x0 x1 = mulf (subf x0 x1) (subf x0 x1) := by
  simp only [k2_pay1, shapeCast_self]

/-- All three windows step through the rows together: at grid point `t` each is at row block `t`, column block 0. -/
theorem blocks_at : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What grid point `t` writes back is rows `5000 t … 5000 t + 4999` of the whole-array centred square. -/
theorem flushed_eq (c : Dev nD) (t : Fin cfg2.N) :
    (dat2 V c).flushed 2 t = ((cfg2.win 2).blk t).view.read (Elt F) (Cert.Sage.csq (V c main_v48) (V c main_v61)) := by
  show (cfg2.win 2).cut (grid2.coords t) ((dat2 V c).after 2 t) = _
  rw [after2_2]
  unfold out2_2
  rw [View.canon_unit_zero off_zero]
  simp only [View.ld_unit_zero (S := S5000x128) off_zero]
  rw [payload_eq]
  obtain ⟨e0, e1, e2, e3, e4, e5⟩ := blocks_at t
  funext j
  show FloatOps.mulf (FloatOps.subf (V c main_v48 (((cfg2.win 0).blk t).view.emb j)) (V c main_v61 (((cfg2.win 1).blk t).view.emb j)))
        (FloatOps.subf (V c main_v48 (((cfg2.win 0).blk t).view.emb j)) (V c main_v61 (((cfg2.win 1).blk t).view.emb j)))
      = FloatOps.mulf (FloatOps.subf (V c main_v48 (((cfg2.win 2).blk t).view.emb j)) (V c main_v61 (((cfg2.win 2).blk t).view.emb j)))
        (FloatOps.subf (V c main_v48 (((cfg2.win 2).blk t).view.emb j)) (V c main_v61 (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

/-- An index of the array lies in point `t`'s block iff each coordinate lies in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v62).slice (win2_2.rect t)).set ↔ _
  rw [View.set_slice_whole, Rect.mem_set_unit]
  exact Iff.rfl

/-- Row `r` of the array is written by grid point `r / 5000`: the twenty row blocks fill the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e0, e1, e2, e3, e4, e5⟩ := blocks_at ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- THE ARRAY the region leaves: the centred square of its two input arrays as the region finds them. -/
theorem final (c : Dev nD) : (dat2 V c).arrAt 2 cfg2.N = Cert.Sage.csq (V c main_v48) (V c main_v61) :=
  (dat2 V c).arrAt_eq_of_cover 2 _ (fun t _ => flushed_eq V c t) cover

end Cert.KernelIdeal.Square2

end
-- ==== Proof.Products.lean ====
/-
  The four matrix products of the two dense steps, read at an entry over the extended reals: the kernel's product of a
  5000-row block with a 128 × 128 (or 128 × 40) weight matrix into a zero accumulator, and the host's product of the whole
  100000-row array with the same matrix, are both, at entry (r, c), the sum over the 128 inner positions `k` of
  left (r, k) · right (k, c). The contraction index of each product's dimension record is re-indexed by its one coordinate.
-/
import proofs.«114936_j57904749084729_1_alg».proof.Proof.Gen.KernelIdeal
import proofs.«114936_j57904749084729_1_alg».proof.Proof.Gen.ReferenceIdeal
import Idealize.ShloMosaic.Lib.ValueIdx
import Idealize.ShloMosaic.PureOps.Ideal.Laws

noncomputable section

open Idealize.ShloMosaic Idealize.ShloMosaic.ValueIdx

namespace Cert.Products.Block128
open Cert.KernelIdeal Cert.KernelIdeal.Gen

theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_row (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, c) of the product is the sum over the 128 inner positions `k` of left (r, k) times right (k, c). -/
theorem entry {φ₁ φ₂ : FTy} (l : FVec Ideal S5000x128 φ₁) (r : FVec Ideal S128x128 φ₂) (j : S5000x128.Idx) :
    matmul dot_S5000x128_S128x128_S5000x128_1_0_0_1_n_n none l r (constant S5000x128 .f32 0x00000000#32) j = ∑ k : Fin 128, l (ix2 (⟨(j 0).val, idx2_lt0 j⟩ : Fin 5000) k) * r (ix2 k (⟨(j 1).val, idx2_lt1 j⟩ : Fin 128)) := by
  refine (Ideal.matmul_constant_zero_apply dot_S5000x128_S128x128_S5000x128_1_0_0_1_n_n none l r j).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = ix2 (⟨(j 0).val, idx2_lt0 j⟩ : Fin 5000) k := funext fun a => Fin.ext (by
    match a with
    | ⟨0, _⟩ => exact lhs_row _ _
    | ⟨1, _⟩ => exact (lhs_col _ _).trans hk)
  have er : dot_S5000x128_S128x128_S5000x128_1_0_0_1_n_n.rhsIdx j ((contrEquiv1 dot_S5000x128_S128x128_S5000x128_1_0_0_1_n_n 128 rfl rfl).symm k) = ix2 k (⟨(j 1).val, idx2_lt1 j⟩ : Fin 128) := funext fun a => Fin.ext (by
    match a with
    | ⟨0, _⟩ => exact (rhs_row _ _).trans hk
    | ⟨1, _⟩ => exact rhs_col _ _)
  rw [el, er]

end Cert.Products.Block128

namespace Cert.Products.Block40
open Cert.KernelIdeal Cert.KernelIdeal.Gen

theorem lhs_row (j : S5000x40.Idx) (q : dot_S5000x128_S128x40_S5000x40_1_0_0_1_n_n.contr.Idx) : (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_col (j : S5000x40.Idx) (q : dot_S5000x128_S128x40_S5000x40_1_0_0_1_n_n.contr.Idx) : (dot_S5000x128_S128x40_S5000x40_1_0_0_1_n_n.lhsIdx j q 1).val = (q ⟨0, by decide⟩).val :=
  dot_S5000x128_S128x40_S5000x40_1_0_0_1_n_n.lhsIdx_val_of_single rfl j q
theorem rhs_row (j : S5000x40.Idx) (q : dot_S5000x128_S128x40_S5000x40_1_0_0_1_n_n.contr.Idx) : (dot_S5000x128_S128x40_S5000x40_1_0_0_1_n_n.rhsIdx j q 0).val = (q ⟨0, by decide⟩).val :=
  dot_S5000x128_S128x40_S5000x40_1_0_0_1_n_n.rhsIdx_val_of_single rfl j q
theorem rhs_col (j : S5000x40.Idx) (q : dot_S5000x128_S128x40_S5000x40_1_0_0_1_n_n.contr.Idx) : (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry (r, c) of the product is the sum over the 128 inner positions `k` of left (r, k) times right (k, c). -/
theorem entry {φ₁ φ₂ : FTy} (l : FVec Ideal S5000x128 φ₁) (r : FVec Ideal S128x40 φ₂) (j : S5000x40.Idx) :
    matmul dot_S5000x128_S128x40_S5000x40_1_0_0_1_n_n none l r (constant S5000x40 .f32 0x00000000#32) j = ∑ k : Fin 128, l (ix2 (⟨(j 0).val, idx2_lt0 j⟩ : Fin 5000) k) * r (ix2 k (⟨(j 1).val, idx2_lt1 j⟩ : Fin 40)) := by
  refine (Ideal.matmul_constant_zero_apply dot_S5000x128_S128x40_S5000x40_1_0_0_1_n_n none l r j).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx j ((contrEquiv1 dot_S5000x128_S128x40_S5000x40_1_0_0_1_n_n 128 rfl rfl).symm k) = ix2 (⟨(j 0).val, idx2_lt0 j⟩ : Fin 5000) k := funext fun a => Fin.ext (by
    match a with
    | ⟨0, _⟩ => exact lhs_row _ _
    | ⟨1, _⟩ => exact (lhs_col _ _).trans hk)
  have er : dot_S5000x128_S128x40_S5000x40_1_0_0_1_n_n.rhsIdx j ((contrEquiv1 dot_S5000x128_S128x40_S5000x40_1_0_0_1_n_n 128 rfl rfl).symm k) = ix2 k (⟨(j 1).val, idx2_lt1 j⟩ : Fin 40) := funext fun a => Fin.ext (by
    match a with
    | ⟨0, _⟩ => exact (rhs_row _ _).trans hk
    | ⟨1, _⟩ => exact rhs_col _ _)
  rw [el, er]

end Cert.Products.Block40

namespace Cert.Products.Whole128
open Cert.ReferenceIdeal Cert.ReferenceIdeal.Gen

theorem lhs_row (j : S100000x128.Idx) (q : dot_S100000x128_S128x128_S100000x128_1_0_0_1_n_n.contr.Idx) : (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_col (j : S100000x128.Idx) (q : dot_S100000x128_S128x128_S100000x128_1_0_0_1_n_n.contr.Idx) : (dot_S100000x128_S128x128_S100000x128_1_0_0_1_n_n.lhsIdx j q 1).val = (q ⟨0, by decide⟩).val :=
  dot_S100000x128_S128x128_S100000x128_1_0_0_1_n_n.lhsIdx_val_of_single rfl j q
theorem rhs_row (j : S100000x128.Idx) (q : dot_S100000x128_S128x128_S100000x128_1_0_0_1_n_n.contr.Idx) : (dot_S100000x128_S128x128_S100000x128_1_0_0_1_n_n.rhsIdx j q 0).val = (q ⟨0, by decide⟩).val :=
  dot_S100000x128_S128x128_S100000x128_1_0_0_1_n_n.rhsIdx_val_of_single rfl j q
theorem rhs_col (j : S100000x128.Idx) (q : dot_S100000x128_S128x128_S100000x128_1_0_0_1_n_n.contr.Idx) : (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry (r, c) of the product is the sum over the 128 inner positions `k` of left (r, k) times right (k, c). -/
theorem entry {φ₁ φ₂ : FTy} (l : FVec Ideal S100000x128 φ₁) (r : FVec Ideal S128x128 φ₂) (j : S100000x128.Idx) :
    Host.dotGeneral dot_S100000x128_S128x128_S100000x128_1_0_0_1_n_n none l r j = ∑ k : Fin 128, l (ix2 (⟨(j 0).val, idx2_lt0 j⟩ : Fin 100000) k) * r (ix2 k (⟨(j 1).val, idx2_lt1 j⟩ : Fin 128)) := by
  simp only [Host.dotGeneral]
  refine (Ideal.dotGeneral_apply dot_S100000x128_S128x128_S100000x128_1_0_0_1_n_n none _ l r j).trans ?_
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx j ((contrEquiv1 dot_S100000x128_S128x128_S100000x128_1_0_0_1_n_n 128 rfl rfl).symm k) = ix2 (⟨(j 0).val, idx2_lt0 j⟩ : Fin 100000) k := funext fun a => Fin.ext (by
    match a with
    | ⟨0, _⟩ => exact lhs_row _ _
    | ⟨1, _⟩ => exact (lhs_col _ _).trans hk)
  have er : dot_S100000x128_S128x128_S100000x128_1_0_0_1_n_n.rhsIdx j ((contrEquiv1 dot_S100000x128_S128x128_S100000x128_1_0_0_1_n_n 128 rfl rfl).symm k) = ix2 k (⟨(j 1).val, idx2_lt1 j⟩ : Fin 128) := funext fun a => Fin.ext (by
    match a with
    | ⟨0, _⟩ => exact (rhs_row _ _).trans hk
    | ⟨1, _⟩ => exact rhs_col _ _)
  rw [el, er]

end Cert.Products.Whole128

namespace Cert.Products.Whole40
open Cert.ReferenceIdeal Cert.ReferenceIdeal.Gen

theorem lhs_row (j : S100000x40.Idx) (q : dot_S100000x128_S128x40_S100000x40_1_0_0_1_n_n.contr.Idx) : (dot_S100000x128_S128x40_S100000x40_1_0_0_1_n_n.lhsIdx j q 0).val = (j 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem lhs_col (j : S100000x40.Idx) (q : dot_S100000x128_S128x40_S100000x40_1_0_0_1_n_n.contr.Idx) : (dot_S100000x128_S128x40_S100000x40_1_0_0_1_n_n.lhsIdx j q 1).val = (q ⟨0, by decide⟩).val :=
  dot_S100000x128_S128x40_S100000x40_1_0_0_1_n_n.lhsIdx_val_of_single rfl j q
theorem rhs_row (j : S100000x40.Idx) (q : dot_S100000x128_S128x40_S100000x40_1_0_0_1_n_n.contr.Idx) : (dot_S100000x128_S128x40_S100000x40_1_0_0_1_n_n.rhsIdx j q 0).val = (q ⟨0, by decide⟩).val :=
  dot_S100000x128_S128x40_S100000x40_1_0_0_1_n_n.rhsIdx_val_of_single rfl j q
theorem rhs_col (j : S100000x40.Idx) (q : dot_S100000x128_S128x40_S100000x40_1_0_0_1_n_n.contr.Idx) : (dot_S100000x128_S128x40_S100000x40_1_0_0_1_n_n.rhsIdx j q 1).val = (j 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- Entry (r, c) of the product is the sum over the 128 inner positions `k` of left (r, k) times right (k, c). -/
theorem entry {φ₁ φ₂ : FTy} (l : FVec Ideal S100000x128 φ₁) (r : FVec Ideal S128x40 φ₂) (j : S100000x40.Idx) :
    Host.dotGeneral dot_S100000x128_S128x40_S100000x40_1_0_0_1_n_n none l r j = ∑ k : Fin 128, l (ix2 (⟨(j 0).val, idx2_lt0 j⟩ : Fin 100000) k) * r (ix2 k (⟨(j 1).val, idx2_lt1 j⟩ : Fin 40)) := by
  simp only [Host.dotGeneral]
  refine (Ideal.dotGeneral_apply dot_S100000x128_S128x40_S100000x40_1_0_0_1_n_n none _ l r j).trans ?_
  rw [← Equiv.sum_comp (contrEquiv1 dot_S100000x128_S128x40_S100000x40_1_0_0_1_n_n 128 rfl rfl).symm]
  refine Finset.sum_congr rfl fun k _ => ?_
  have hk := contrEquiv1_symm_val dot_S100000x128_S128x40_S100000x40_1_0_0_1_n_n 128 rfl rfl k
  have el : dot_S100000x128_S128x40_S100000x40_1_0_0_1_n_n.lhsIdx j ((contrEquiv1 dot_S100000x128_S128x40_S100000x40_1_0_0_1_n_n 128 rfl rfl).symm k) = ix2 (⟨(j 0).val, idx2_lt0 j⟩ : Fin 100000) k := funext fun a => Fin.ext (by
    match a with
    | ⟨0, _⟩ => exact lhs_row _ _
    | ⟨1, _⟩ => exact (lhs_col _ _).trans hk)
  have er : dot_S100000x128_S128x40_S100000x40_1_0_0_1_n_n.rhsIdx j ((contrEquiv1 dot_S100000x128_S128x40_S100000x40_1_0_0_1_n_n 128 rfl rfl).symm k) = ix2 k (⟨(j 1).val, idx2_lt1 j⟩ : Fin 40) := funext fun a => Fin.ext (by
    match a with
    | ⟨0, _⟩ => exact (rhs_row _ _).trans hk
    | ⟨1, _⟩ => exact rhs_col _ _)
  rw [el, er]

end Cert.Products.Whole40

end
-- ==== Proof.DenseOne.lean ====
/-
  The first dense step at one entry, on both sides. The kernel's body, on a block of 5000 rows, forms
  `max(spread(S)·Wl + X·Wr + b, 0)`; the whole-array step forms `max((spread(S)·Wl + b) + X·Wr, 0)`. At entry (r, c) both are
  the maximum with zero of the two 128-term sums and the bias entry, and addition of extended reals is commutative and
  associative, so a block row of the kernel's result is the matching row of the whole-array result.
-/
import proofs.«114936_j57904749084729_1_alg».proof.Proof.Gen.KernelIdeal.Skeleton
import proofs.«114936_j57904749084729_1_alg».proof.Proof.Spec
import proofs.«114936_j57904749084729_1_alg».proof.Proof.Products
import Idealize.ShloMosaic.Lib.Pipeline.Value
import Idealize.ShloMosaic.Lib.ValueIdx

noncomputable section

namespace Cert.DenseOne

open Cert.KernelIdeal Cert.KernelIdeal.Gen
open Idealize.ShloMosaic Idealize.ShloMosaic.ValueIdx

/-- The spread of one aggregated square: its square root, an exact zero replaced by 1e-16 first. -/
def spr (x : EReal) : EReal :=
  Ideal.sqrt (Scalar.select (Ideal.cmp .oeq x (Ideal.ofBits .f32 0x00000000#32)) (Ideal.ofBits .f32 0x24E69595#32) x)

theorem spread_entry (s : FVec Ideal S100000x128 .f32) (i : S100000x128.Idx) : Cert.Sage.spread (F := Ideal) s i = spr (s i) := rfl

/-- The bias row broadcast down the block's 5000 rows, at an entry. -/
theorem bias_block (bb : Vec Ideal S1x128 .f32) (j : S5000x128.Idx) :
    broadcastTo S5000x128 bb broadcasts_S1x128_S5000x128 j = bb (ix2 (0 : Fin 1) (⟨(j 1).val, idx2_lt1 j⟩ : Fin 128)) :=
  broadcastTo_apply bb _ j _ (fun a => by match a with | ⟨0, _⟩ => rfl | ⟨1, _⟩ => rfl)

/-- The bias row broadcast down the array's 100000 rows, at an entry. -/
theorem bias_whole (b : FVec Ideal S1x128 .f32) (i : S100000x128.Idx) :
    broadcastInDim S100000x128 ![0, 1] Cert.ReferenceIdeal.Gen.bcast_S1x128_S100000x128_0_1 b i = b (ix2 (0 : Fin 1) (⟨(i 1).val, idx2_lt1 i⟩ : Fin 128)) :=
  broadcastInDim_apply _ _ b i _ (fun a => by match a with | ⟨0, _⟩ => rfl | ⟨1, _⟩ => rfl)

/-- The body's result at entry (r, c) of a block. -/
theorem block_entry (bs bx : Vec Ideal S5000x128 .f32) (bwl bwr : Vec Ideal S128x128 .f32) (bb : Vec Ideal S1x128 .f32) (j : S5000x128.Idx) :
    k1_pay1 (F := Ideal) bs bx bwl bwr bb j
      = max ((∑ k : Fin 128, spr (bs (ix2 (⟨(j 0).val, idx2_lt0 j⟩ : Fin 5000) k)) * bwl (ix2 k (⟨(j 1).val, idx2_lt1 j⟩ : Fin 128)))
            + (∑ k : Fin 128, bx (ix2 (⟨(j 0).val, idx2_lt0 j⟩ : Fin 5000) k) * bwr (ix2 k (⟨(j 1).val, idx2_lt1 j⟩ : Fin 128)))
            + bb (ix2 (0 : Fin 1) (⟨(j 1).val, idx2_lt1 j⟩ : Fin 128)))
          (Ideal.ofBits .f32 0x00000000#32) := by
  unfold k1_pay1
  simp only [shapeCast_self, maximumf_apply, addf_apply, Cert.Products.Block128.entry]
  refine congrArg₂ max (congrArg₂ (· + ·) ?_ (bias_block bb j)) rfl
  rfl

/-- The whole-array step's result at entry (r, c). -/
theorem whole_entry (s x : FVec Ideal S100000x128 .f32) (wl wr : FVec Ideal S128x128 .f32) (b : FVec Ideal S1x128 .f32) (i : S100000x128.Idx) :
    Cert.Sage.dense1 (F := Ideal) s x wl b wr i
      = max ((∑ k : Fin 128, spr (s (ix2 (⟨(i 0).val, idx2_lt0 i⟩ : Fin 100000) k)) * wl (ix2 k (⟨(i 1).val, idx2_lt1 i⟩ : Fin 128)))
            + b (ix2 (0 : Fin 1) (⟨(i 1).val, idx2_lt1 i⟩ : Fin 128))
            + (∑ k : Fin 128, x (ix2 (⟨(i 0).val, idx2_lt0 i⟩ : Fin 100000) k) * wr (ix2 k (⟨(i 1).val, idx2_lt1 i⟩ : Fin 128))))
          (Ideal.ofBits .f32 0x00000000#32) := by
  unfold Cert.Sage.dense1
  simp only [maximumf_apply, addf_apply, Cert.Products.Whole128.entry]
  refine congrArg₂ max (congrArg₂ (· + ·) (congrArg₂ (· + ·) ?_ (bias_whole b i)) rfl) rfl
  rfl

/-- A row of the body's result on a block IS the matching row of the whole-array step: the block's two feature rows are
    the arrays' rows, the weights and the bias are read whole, and `(a + b) + c = (a + c) + b` on the extended reals. -/
theorem row_eq (s x : FVec Ideal S100000x128 .f32) (wl wr : FVec Ideal S128x128 .f32) (b : FVec Ideal S1x128 .f32)
    (bs bx : Vec Ideal S5000x128 .f32) (bwl bwr : Vec Ideal S128x128 .f32) (bb : Vec Ideal S1x128 .f32)
    (j : S5000x128.Idx) (i : S100000x128.Idx)
    (hs : ∀ k : Fin 128, bs (ix2 (⟨(j 0).val, idx2_lt0 j⟩ : Fin 5000) k) = s (ix2 (⟨(i 0).val, idx2_lt0 i⟩ : Fin 100000) k))
    (hx : ∀ k : Fin 128, bx (ix2 (⟨(j 0).val, idx2_lt0 j⟩ : Fin 5000) k) = x (ix2 (⟨(i 0).val, idx2_lt0 i⟩ : Fin 100000) k))
    (hwl : ∀ y, bwl y = wl y) (hwr : ∀ y, bwr y = wr y) (hb : ∀ y, bb y = b y) (hc : (j 1).val = (i 1).val) :
    k1_pay1 (F := Ideal) bs bx bwl bwr bb j = Cert.Sage.dense1 (F := Ideal) s x wl b wr i := by
  rw [block_entry, whole_entry]
  have hjc : (⟨(j 1).val, idx2_lt1 j⟩ : Fin 128) = ⟨(i 1).val, idx2_lt1 i⟩ := Fin.ext hc
  simp only [hs, hx, hwl, hwr, hb, hjc]
  rw [add_right_comm]

end Cert.DenseOne

end
-- ==== Proof.DenseTwo.lean ====
/-
  The second dense step at one entry, on both sides: onto the 40 classes, without rectifier. The kernel's body on a block of
  5000 rows forms `spread(S)·Wl + H·Wr + b`, the whole-array step `(spread(S)·Wl + b) + H·Wr`; at entry (r, c) both are the two
  128-term sums and the bias entry, added in two orders.
-/
import proofs.«114936_j57904749084729_1_alg».proof.Proof.DenseOne

noncomputable section

namespace Cert.DenseTwo

open Cert.KernelIdeal Cert.KernelIdeal.Gen
open Idealize.ShloMosaic Idealize.ShloMosaic.ValueIdx
open Cert.DenseOne (spr)

/-- The bias row broadcast down the block's 5000 rows, at an entry. -/
theorem bias_block (bb : Vec Ideal S1x40 .f32) (j : S5000x40.Idx) :
    broadcastTo S5000x40 bb broadcasts_S1x40_S5000x40 j = bb (ix2 (0 : Fin 1) (⟨(j 1).val, idx2_lt1 j⟩ : Fin 40)) :=
  broadcastTo_apply bb _ j _ (fun a => by match a with | ⟨0, _⟩ => rfl | ⟨1, _⟩ => rfl)

/-- The bias row broadcast down the array's 100000 rows, at an entry. -/
theorem bias_whole (b : FVec Ideal S1x40 .f32) (i : S100000x40.Idx) :
    broadcastInDim S100000x40 ![0, 1] Cert.ReferenceIdeal.Gen.bcast_S1x40_S100000x40_0_1 b i = b (ix2 (0 : Fin 1) (⟨(i 1).val, idx2_lt1 i⟩ : Fin 40)) :=
  broadcastInDim_apply _ _ b i _ (fun a => by match a with | ⟨0, _⟩ => rfl | ⟨1, _⟩ => rfl)

/-- The body's result at entry (r, c) of a block. -/
theorem block_entry (bs bx : Vec Ideal S5000x128 .f32) (bwl bwr : Vec Ideal S128x40 .f32) (bb : Vec Ideal S1x40 .f32) (j : S5000x40.Idx) :
    k3_pay1 (F := Ideal) bs bx bwl bwr bb j
      = (∑ k : Fin 128, spr (bs (ix2 (⟨(j 0).val, idx2_lt0 j⟩ : Fin 5000) k)) * bwl (ix2 k (⟨(j 1).val, idx2_lt1 j⟩ : Fin 40)))
            + (∑ k : Fin 128, bx (ix2 (⟨(j 0).val, idx2_lt0 j⟩ : Fin 5000) k) * bwr (ix2 k (⟨(j 1).val, idx2_lt1 j⟩ : Fin 40)))
            + bb (ix2 (0 : Fin 1) (⟨(j 1).val, idx2_lt1 j⟩ : Fin 40)) := by
  unfold k3_pay1
  simp only [shapeCast_self, addf_apply, Cert.Products.Block40.entry]
  refine congrArg₂ (· + ·) ?_ (bias_block bb j)
  rfl

/-- The whole-array step's result at entry (r, c). -/
theorem whole_entry (s x : FVec Ideal S100000x128 .f32) (wl wr : FVec Ideal S128x40 .f32) (b : FVec Ideal S1x40 .f32) (i : S100000x40.Idx) :
    Cert.Sage.dense2 (F := Ideal) s x wl b wr i
      = (∑ k : Fin 128, spr (s (ix2 (⟨(i 0).val, idx2_lt0 i⟩ : Fin 100000) k)) * wl (ix2 k (⟨(i 1).val, idx2_lt1 i⟩ : Fin 40)))
            + b (ix2 (0 : Fin 1) (⟨(i 1).val, idx2_lt1 i⟩ : Fin 40))
            + (∑ k : Fin 128, x (ix2 (⟨(i 0).val, idx2_lt0 i⟩ : Fin 100000) k) * wr (ix2 k (⟨(i 1).val, idx2_lt1 i⟩ : Fin 40))) := by
  unfold Cert.Sage.dense2
  simp only [addf_apply, Cert.Products.Whole40.entry]
  refine congrArg₂ (· + ·) (congrArg₂ (· + ·) ?_ (bias_whole b i)) rfl
  rfl

/-- A row of the body's result on a block IS the matching row of the whole-array step. -/
theorem row_eq (s x : FVec Ideal S100000x128 .f32) (wl wr : FVec Ideal S128x40 .f32) (b : FVec Ideal S1x40 .f32)
    (bs bx : Vec Ideal S5000x128 .f32) (bwl bwr : Vec Ideal S128x40 .f32) (bb : Vec Ideal S1x40 .f32)
    (j : S5000x40.Idx) (i : S100000x40.Idx)
    (hs : ∀ k : Fin 128, bs (ix2 (⟨(j 0).val, idx2_lt0 j⟩ : Fin 5000) k) = s (ix2 (⟨(i 0).val, idx2_lt0 i⟩ : Fin 100000) k))
    (hx : ∀ k : Fin 128, bx (ix2 (⟨(j 0).val, idx2_lt0 j⟩ : Fin 5000) k) = x (ix2 (⟨(i 0).val, idx2_lt0 i⟩ : Fin 100000) k))
    (hwl : ∀ y, bwl y = wl y) (hwr : ∀ y, bwr y = wr y) (hb : ∀ y, bb y = b y) (hc : (j 1).val = (i 1).val) :
    k3_pay1 (F := Ideal) bs bx bwl bwr bb j = Cert.Sage.dense2 (F := Ideal) s x wl b wr i := by
  rw [block_entry, whole_entry]
  have hjc : (⟨(j 1).val, idx2_lt1 j⟩ : Fin 40) = ⟨(i 1).val, idx2_lt1 i⟩ := Fin.ext hc
  simp only [hs, hx, hwl, hwr, hb, hjc]
  rw [add_right_comm]

end Cert.DenseTwo

end
-- ==== Proof.Dense.lean ====
/-
  The two dense regions of the idealized kernel, each read as a whole-array function. A region walks the 100000 rows in twenty
  blocks of 5000; the body reads the block's rows of the aggregated squares and of the features, the two weight matrices and the
  bias row whole, and writes the block's rows of the result. A result row depends only on the same row of the two feature arrays,
  so block `t` of the result is block `t` of the whole-array dense step, and the twenty blocks fill the array.
-/
import proofs.«114936_j57904749084729_1_alg».proof.Proof.Gen.KernelIdeal.Frame
import proofs.«114936_j57904749084729_1_alg».proof.Proof.DenseTwo
import Idealize.ShloMosaic.Lib.Pipeline.Value

set_option maxRecDepth 16384

noncomputable section

/-! ## Region 1: the dense step on `main_v47` and `main_arg0`, written to `main_v48` -/

namespace Cert.KernelIdeal.Dense1

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

theorem off_zero : (![0, 0] : Fin 2 → Nat) = fun _ => 0 := funext fun a => by fin_cases a <;> rfl

/-- The two feature windows and the output window step through the rows together (row block `t` at grid point `t`); the two
    weight matrices and the bias row are read whole at every point. -/
theorem blocks_at : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is rows `5000 t … 5000 t + 4999` of the whole-array dense step. -/
theorem flushed_eq (c : Dev nD) (t : Fin cfg1.N) :
    (dat1 V c).flushed 5 t = ((cfg1.win 5).blk t).view.read (Elt Ideal)
      (Cert.Sage.dense1 (F := Ideal) (V c main_v47) (V c main_arg0) (V c main_v15) (V c main_v17) (V c main_v16)) := by
  show (cfg1.win 5).cut (grid1.coords t) ((dat1 V c).after 5 t) = _
  rw [after1_5]
  unfold out1_5
  rw [View.canon_unit_zero off_zero]
  simp only [View.ld_unit_zero (S := S5000x128) off_zero, View.ld_unit_zero (S := S128x128) off_zero, View.ld_unit_zero (S := S1x128) off_zero]
  obtain ⟨e00, e01, e10, e11, e20, e21, e30, e31, e40, e41, e50, e51⟩ := blocks_at t
  funext j
  show k1_pay1 (F := Ideal) (iblk1 V c 0 t) (iblk1 V c 1 t) (iblk1 V c 2 t) (iblk1 V c 4 t) (iblk1 V c 3 t) j
      = Cert.Sage.dense1 (F := Ideal) (V c main_v47) (V c main_arg0) (V c main_v15) (V c main_v17) (V c main_v16) (((cfg1.win 5).blk t).view.emb j)
  refine Cert.DenseOne.row_eq (V c main_v47) (V c main_arg0) (V c main_v15) (V c main_v16) (V c main_v17)
    (iblk1 V c 0 t) (iblk1 V c 1 t) (iblk1 V c 2 t) (iblk1 V c 4 t) (iblk1 V c 3 t) j (((cfg1.win 5).blk t).view.emb j) ?_ ?_ ?_ ?_ ?_ ?_
  · intro k
    refine congrArg (V c main_v47) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    refine congrArg (V c main_arg0) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · intro y
    refine congrArg (V c main_v15) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · intro y
    refine congrArg (V c main_v16) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · intro y
    refine congrArg (V c main_v17) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show (j 1).val = win1_5.index t (1 : Fin 2) * 128 + 1 * (j 1).val; omega

/-- An index of the array lies in point `t`'s block iff each coordinate lies in the block's range on its axis. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- Row `r` of the array is written by grid point `r / 5000`: the twenty row blocks fill the array. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e00, e01, e10, e11, e20, e21, e30, e31, e40, e41, e50, e51⟩ := blocks_at ⟨(i 0).val / 5000, ht⟩
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- THE ARRAY the region leaves: the dense step of its five input arrays as the region finds them. -/
theorem final (c : Dev nD) : (dat1 V c).arrAt 5 cfg1.N
    = Cert.Sage.dense1 (F := Ideal) (V c main_v47) (V c main_arg0) (V c main_v15) (V c main_v17) (V c main_v16) :=
  (dat1 V c).arrAt_eq_of_cover 5 _ (fun t _ => flushed_eq V c t) cover

end Cert.KernelIdeal.Dense1

/-! ## Region 3: the dense step on `main_v75` and `main_v48`, written to `main_v76` -/

namespace Cert.KernelIdeal.Dense3

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

theorem off_zero : (![0, 0] : Fin 2 → Nat) = fun _ => 0 := funext fun a => by fin_cases a <;> rfl

/-- The two feature windows and the output window step through the rows together (row block `t` at grid point `t`); the two
    weight matrices and the bias row are read whole at every point. -/
theorem blocks_at : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What grid point `t` writes back is rows `5000 t … 5000 t + 4999` of the whole-array dense step. -/
theorem flushed_eq (c : Dev nD) (t : Fin cfg3.N) :
    (dat3 V c).flushed 5 t = ((cfg3.win 5).blk t).view.read (Elt Ideal)
      (Cert.Sage.dense2 (F := Ideal) (V c main_v75) (V c main_v48) (V c main_v18) (V c main_v20) (V c main_v19)) := by
  show (cfg3.win 5).cut (grid3.coords t) ((dat3 V c).after 5 t) = _
  rw [after3_5]
  unfold out3_5
  rw [View.canon_unit_zero off_zero]
  simp only [View.ld_unit_zero (S := S5000x128) off_zero, View.ld_unit_zero (S := S128x40) off_zero, View.ld_unit_zero (S := S1x40) off_zero]
  obtain ⟨e00, e01, e10, e11, e20, e21, e30, e31, e40, e41, e50, e51⟩ := blocks_at t
  funext j
  show k3_pay1 (F := Ideal) (iblk3 V c 0 t) (iblk3 V c 1 t) (iblk3 V c 2 t) (iblk3 V c 4 t) (iblk3 V c 3 t) j
      = Cert.Sage.dense2 (F := Ideal) (V c main_v75) (V c main_v48) (V c main_v18) (V c main_v20) (V c main_v19) (((cfg3.win 5).blk t).view.emb j)
  refine Cert.DenseTwo.row_eq (V c main_v75) (V c main_v48) (V c main_v18) (V c main_v19) (V c main_v20)
    (iblk3 V c 0 t) (iblk3 V c 1 t) (iblk3 V c 2 t) (iblk3 V c 4 t) (iblk3 V c 3 t) j (((cfg3.win 5).blk t).view.emb j) ?_ ?_ ?_ ?_ ?_ ?_
  · intro k
    refine congrArg (V c main_v75) (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * k.val = k.val; omega
  · intro k
    refine congrArg (V c main_v48) (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 128 + 1 * k.val = k.val; omega
  · intro y
    refine congrArg (V c main_v18) (funext fun a => Fin.ext ?_)
    match a with
    | ⟨0, _⟩ => show win3_2.index t (0 : Fin 2) * 128 + 1 * (y 0).val = (y 0).val; omega
    | ⟨1, _⟩ => show win3_2.index t (1 : Fin 2) * 40 + 1 * (y 1).val = (y 1).val; omega
  · intro y
    refine congrArg (V c main_v19) (funext fun a => Fin.ext ?_)
    match a with
    | ⟨0, _⟩ => show win3_4.index t (0 : Fin 2) * 128 + 1 * (y 0).val = (y 0).val; omega
    | ⟨1, _⟩ => show win3_4.index t (1 : Fin 2) * 40 + 1 * (y 1).val = (y 1).val; omega
  · intro y
    refine congrArg (V c main_v20) (funext fun a => Fin.ext ?_)
    match a with
    | ⟨0, _⟩ => show win3_3.index t (0 : Fin 2) * 1 + 1 * (y 0).val = (y 0).val; omega
    | ⟨1, _⟩ => show win3_3.index t (1 : Fin 2) * 40 + 1 * (y 1).val = (y 1).val; omega
  · show (j 1).val = win3_5.index t (1 : Fin 2) * 40 + 1 * (j 1).val; omega

/-- An index of the array lies in point `t`'s block iff each coordinate lies in the block's range on its axis. -/
theorem mem_block (t : Fin cfg3.N) (i : S100000x40.Idx) :
    i ∈ ((cfg3.win 5).blk t).view.set ↔ ∀ a : Fin 2, win3_5.index t a * S5000x40.size a ≤ (i a).val ∧ (i a).val < win3_5.index t a * S5000x40.size a + S5000x40.size a := by
  show i ∈ ((View.whole main_v76).slice (win3_5.rect t)).set ↔ _
  rw [View.set_slice_whole, Rect.mem_set_unit]
  exact Iff.rfl

/-- Row `r` of the array is written by grid point `r / 5000`: the twenty row blocks fill the array. -/
theorem cover (i : S100000x40.Idx) : ∃ t : Fin cfg3.N, (cfg3.win 5).flush t = true ∧ i ∈ ((cfg3.win 5).blk t).view.set := by
  have hi0 : (i 0).val < 100000 := (i 0).isLt
  have hi1 : (i 1).val < 40 := (i 1).isLt
  have hN : cfg3.N = 20 := N_3
  have ht : (i 0).val / 5000 < cfg3.N := by rw [hN]; omega
  obtain ⟨e00, e01, e10, e11, e20, e21, e30, e31, e40, e41, e50, e51⟩ := blocks_at ⟨(i 0).val / 5000, ht⟩
  refine ⟨⟨(i 0).val / 5000, ht⟩, flush3_5 _, ?_⟩
  rw [mem_block]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 40 ≤ (i 1).val ∧ (i 1).val < win3_5.index ⟨(i 0).val / 5000, ht⟩ (1 : Fin 2) * 40 + 40
    rw [e51]; omega

/-- THE ARRAY the region leaves: the dense step of its five input arrays as the region finds them. -/
theorem final (c : Dev nD) : (dat3 V c).arrAt 5 cfg3.N
    = Cert.Sage.dense2 (F := Ideal) (V c main_v75) (V c main_v48) (V c main_v18) (V c main_v20) (V c main_v19) :=
  (dat3 V c).arrAt_eq_of_cover 5 _ (fun t _ => flushed_eq V c t) cover

end Cert.KernelIdeal.Dense3

end
-- ==== Proof.RowSoftmax.lean ====
/-
  The row-wise log-softmax at one entry, on both sides. On a block of 5000 rows the kernel's body takes each row's maximum
  over the 40 classes, subtracts it, and subtracts the logarithm of the row's sum of exponentials; the whole-array function
  does the same on every row of the 100000. At entry (r, c) both are one function of row r and of the entry, so a block row of
  the kernel's result is the matching row of the whole-array result. The host's maximum is taken once more against its own
  starting value -inf, which changes nothing, and the host's sum starts from the word 0, which is the number zero.
-/
import proofs.«114936_j57904749084729_1_alg».proof.Proof.Gen.KernelIdeal.Skeleton
import proofs.«114936_j57904749084729_1_alg».proof.Proof.Spec
import Idealize.ShloMosaic.Lib.Pipeline.Value
import Idealize.ShloMosaic.Lib.ValueIdx
import Idealize.ShloMosaic.PureOps.Ideal.Laws

noncomputable section

namespace Cert.RowSoftmax

open Cert.KernelIdeal Cert.KernelIdeal.Gen
open Idealize.ShloMosaic Idealize.ShloMosaic.ValueIdx

/-- A row's maximum over its 40 entries, from -inf. -/
def rowMaxOf (f : Fin 40 → EReal) : EReal := (Finset.univ : Finset (Fin 40)).fold max (Ideal.ofBits .f32 0xFF800000#32) f

/-- The log-softmax of the entry `x` of the row `f`. -/
def lse (f : Fin 40 → EReal) (x : EReal) : EReal := (x - rowMaxOf f) - Ideal.log (∑ k : Fin 40, Ideal.exp (f k - rowMaxOf f))

/-- A column of 5000 values broadcast across the 40 classes, at an entry. -/
theorem across_block (w : FVec Ideal S5000x1 .f32) (j : S5000x40.Idx) :
    broadcastTo S5000x40 w broadcasts_S5000x1_S5000x40 j = w (ix2 (⟨(j 0).val, idx2_lt0 j⟩ : Fin 5000) (0 : Fin 1)) :=
  broadcastTo_apply w _ j _ (fun a => by match a with | ⟨0, _⟩ => rfl | ⟨1, _⟩ => rfl)

/-- A vector of 5000 values recast as a column, at an entry. -/
theorem column_block (v : FVec Ideal S5000 .f32) (r : Fin 5000) :
    shapeCast S5000x1 v shapeCasts_S5000_S5000x1 (ix2 r (0 : Fin 1)) = v (ix1 r) :=
  shapeCast_apply v _ _ (ix1 r) (by rw [Shape.rowMajor_val_one, Shape.rowMajor_val_two]; show r.val = r.val * 1 + 0; omega)

/-- The logarithm and the exponential of a vector, at an entry. -/
theorem log_entry {s : Shape} (w : FVec Ideal s .f32) (i : s.Idx) : log w i = Ideal.log (w i) := rfl
theorem exp_entry {s : Shape} (w : FVec Ideal s .f32) (i : s.Idx) : exp w i = Ideal.exp (w i) := rfl

/-- The position the reduction over the classes reads for row `r` and class `k` is entry (r, k). -/
theorem lift_block (r : Fin 5000) (k : Fin 40) : reduces_S5000x40_S5000.lift (ix1 r) k = ix2 r k :=
  funext fun a => Fin.ext (by match a with | ⟨0, _⟩ => rfl | ⟨1, _⟩ => rfl)

/-- A block row's maximum, as the body's reduction computes it. -/
theorem rowmax_block (bz : FVec Ideal S5000x40 .f32) (r : Fin 5000) (hφ : FKind.Formats .f32)
    (hacc : (0xFF800000#32 : BitVec 32) = 0xFF800000#32) :
    multiReduction .maximumf [1] S5000 bz 0xFF800000#32 reduces_S5000x40_S5000 hφ hacc (ix1 r) = rowMaxOf (fun k => bz (ix2 r k)) := by
  refine (Ideal.multiReduction_maximumf_single bz _ reduces_S5000x40_S5000 hφ hacc (ix1 r)).trans ?_
  unfold rowMaxOf
  refine congrArg (fun g => (Finset.univ : Finset (Fin 40)).fold max (Ideal.ofBits .f32 0xFF800000#32) g) (funext fun k => ?_)
  exact congrArg bz (lift_block r k)

/-- A block row's sum, as the body's reduction computes it. -/
theorem rowsum_block (g : FVec Ideal S5000x40 .f32) (r : Fin 5000) (hφ : FKind.Formats .f32)
    (hacc : (0x00000000#32 : BitVec 32) = 0x00000000#32) :
    multiReduction .add [1] S5000 g 0x00000000#32 reduces_S5000x40_S5000 hφ hacc (ix1 r) = ∑ k : Fin 40, g (ix2 r k) := by
  refine (Ideal.multiReduction_add_single g _ reduces_S5000x40_S5000 hφ hacc (ix1 r)).trans ?_
  exact Finset.sum_congr rfl fun k _ => congrArg g (lift_block r k)

/-- The body's result at entry (r, c) of a block. -/
theorem block_entry (bz : Vec Ideal S5000x40 .f32) (j : S5000x40.Idx) :
    k4_pay1 (F := Ideal) bz j = lse (fun k => bz (ix2 (⟨(j 0).val, idx2_lt0 j⟩ : Fin 5000) k)) (bz j) := by
  unfold k4_pay1
  simp only [shapeCast_self, subf_apply, across_block, log_entry, column_block]
  unfold lse
  refine congrArg₂ (· - ·) (congrArg (bz j - ·) (rowmax_block bz _ _ _)) (congrArg Ideal.log ((rowsum_block _ _ _ _).trans ?_))
  refine Finset.sum_congr rfl fun k _ => ?_
  exact congrArg (fun v => Ideal.exp (bz (ix2 (⟨(j 0).val, idx2_lt0 j⟩ : Fin 5000) k) - v))
    ((across_block _ _).trans ((column_block _ _).trans (rowmax_block bz _ _ _)))

end Cert.RowSoftmax

/-! ## The whole-array side -/

namespace Cert.RowSoftmax

open Cert.ReferenceIdeal Cert.ReferenceIdeal.Gen
open Idealize.ShloMosaic Idealize.ShloMosaic.ValueIdx

theorem reduces_whole : S100000x40.Reduces [1] S100000 := by decide

theorem lift_whole (r : Fin 100000) (k : Fin 40) : reduces_whole.lift (ix1 r) k = ix2 r k :=
  funext fun a => Fin.ext (by match a with | ⟨0, _⟩ => rfl | ⟨1, _⟩ => rfl)

theorem hostlog_entry {s : Shape} (w : FVec Ideal s .f32) (i : s.Idx) : Host.log w i = Ideal.log (w i) := rfl
theorem hostexp_entry {s : Shape} (w : FVec Ideal s .f32) (i : s.Idx) : Host.exp w i = Ideal.exp (w i) := rfl

/-- A column of 100000 values broadcast across the 40 classes, at an entry. -/
theorem across_whole (w : FVec Ideal S100000x1 .f32) (i : S100000x40.Idx) :
    broadcastInDim S100000x40 ![0, 1] bcast_S100000x1_S100000x40_0_1 w i = w (ix2 (⟨(i 0).val, idx2_lt0 i⟩ : Fin 100000) (0 : Fin 1)) :=
  broadcastInDim_apply _ _ w i _ (fun a => by match a with | ⟨0, _⟩ => rfl | ⟨1, _⟩ => rfl)

/-- A vector of 100000 values as a column, at an entry. -/
theorem column_whole (v : FVec Ideal S100000 .f32) (r : Fin 100000) :
    broadcastInDim S100000x1 ![0] bcast_S100000_S100000x1_0 v (ix2 r (0 : Fin 1)) = v (ix1 r) :=
  broadcastInDim_apply _ _ v _ (ix1 r) (fun a => by match a with | ⟨0, _⟩ => rfl)

/-- The host's reduction of a row by the maximum, from -inf. -/
theorem reduce_whole (z : FVec Ideal S100000x40 .f32) (r : Fin 100000) :
    Host.reduce FloatOps.maximumf z (constant S_ .f32 0xFF800000#32) reducesTo_S100000x40_S100000_d1 h_S_ (ix1 r)
      = rowMaxOf (fun k => z (ix2 r k)) := by
  refine (Host.reduce_eq_fold_single FloatOps.maximumf z _ _ reduces_whole _ (ix1 r)).trans ?_
  unfold rowMaxOf
  exact congrArg (fun g => (Finset.univ : Finset (Fin 40)).fold max (Ideal.ofBits .f32 0xFF800000#32) g) (funext fun k => congrArg z (lift_whole r k))

/-- A row's maximum as the host takes it: the reduction from -inf, then once more the maximum with -inf. -/
theorem rowmax_whole (z : FVec Ideal S100000x40 .f32) (r : Fin 100000) :
    Cert.Sage.rowMax (F := Ideal) z (ix1 r) = rowMaxOf (fun k => z (ix2 r k)) := by
  have ha : broadcastInDim S100000 ![] bcast_S_S100000 (constant (F := Ideal) S_ .f32 0xFF800000#32) (ix1 r) = Ideal.ofBits .f32 0xFF800000#32 := rfl
  unfold Cert.Sage.rowMax
  rw [maximumf_apply, reduce_whole, ha]
  exact max_eq_right ((Finset.le_fold_max _).mpr (Or.inl le_rfl))

/-- A row's sum as the host takes it, from the word 0. -/
theorem rowsum_whole (g : FVec Ideal S100000x40 .f32) (r : Fin 100000) :
    Host.reduceAdd g (constant S_ .f32 0x00000000#32) reducesTo_S100000x40_S100000_d1 h_S_ (ix1 r) = ∑ k : Fin 40, g (ix2 r k) := by
  simp only [Host.reduceAdd, Ideal.hostReduceAdd_def, constant_apply]
  rw [Ideal.hostReduceAdd_single _ reduces_whole, Ideal.ofBits_zero_f32, zero_add]
  exact Finset.sum_congr rfl fun k _ => congrArg g (lift_whole r k)

/-- The whole-array log-softmax at entry (r, c). -/
theorem whole_entry (z : FVec Ideal S100000x40 .f32) (i : S100000x40.Idx) :
    Cert.Sage.logSoftmax (F := Ideal) z i = lse (fun k => z (ix2 (⟨(i 0).val, idx2_lt0 i⟩ : Fin 100000) k)) (z i) := by
  unfold Cert.Sage.logSoftmax Cert.Sage.shifted
  simp only [subf_apply]
  unfold lse
  refine congrArg₂ (· - ·)
    (congrArg (z i - ·) ((across_whole _ i).trans ((column_whole _ _).trans (rowmax_whole z _))))
    ((across_whole _ i).trans ((hostlog_entry _ _).trans (congrArg Ideal.log ((column_whole _ _).trans ((rowsum_whole _ _).trans ?_)))))
  refine Finset.sum_congr rfl fun k _ => ?_
  exact congrArg (fun v => Ideal.exp (z (ix2 (⟨(i 0).val, idx2_lt0 i⟩ : Fin 100000) k) - v))
    ((across_whole _ _).trans ((column_whole _ _).trans (rowmax_whole z _)))

end Cert.RowSoftmax

/-! ## A block row against the matching whole row -/

namespace Cert.RowSoftmax

open Cert.KernelIdeal Cert.KernelIdeal.Gen
open Idealize.ShloMosaic Idealize.ShloMosaic.ValueIdx

/-- A row of the body's result on a block IS the matching row of the whole-array log-softmax. -/
theorem row_eq (z : FVec Ideal S100000x40 .f32) (bz : Vec Ideal S5000x40 .f32) (j : S5000x40.Idx) (i : S100000x40.Idx)
    (hrow : ∀ k : Fin 40, bz (ix2 (⟨(j 0).val, idx2_lt0 j⟩ : Fin 5000) k) = z (ix2 (⟨(i 0).val, idx2_lt0 i⟩ : Fin 100000) k))
    (he : bz j = z i) :
    k4_pay1 (F := Ideal) bz j = Cert.Sage.logSoftmax (F := Ideal) z i := by
  rw [block_entry, whole_entry, he]
  exact congrArg (fun f => lse f (z i)) (funext hrow)

end Cert.RowSoftmax

end
-- ==== Proof.Softmax.lean ====
/-
  The log-softmax region of the idealized kernel read as a whole-array function. The region walks the 100000 rows of the
  class scores in twenty blocks of 5000; a result row depends only on the same row of the scores, so block `t` of the result is
  block `t` of the whole-array row-wise log-softmax, and the twenty blocks fill the array.
-/
import proofs.«114936_j57904749084729_1_alg».proof.Proof.Gen.KernelIdeal.Frame
import proofs.«114936_j57904749084729_1_alg».proof.Proof.RowSoftmax
import Idealize.ShloMosaic.Lib.Pipeline.Value

set_option maxRecDepth 16384

noncomputable section

namespace Cert.KernelIdeal.Softmax4

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

theorem off_zero : (![0, 0] : Fin 2 → Nat) = fun _ => 0 := funext fun a => by fin_cases a <;> rfl

/-- Both windows step through the rows together: row block `t` at grid point `t`, the 40 classes whole. -/
theorem blocks_at : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- What grid point `t` writes back is rows `5000 t … 5000 t + 4999` of the whole-array log-softmax. -/
theorem flushed_eq (c : Dev nD) (t : Fin cfg4.N) :
    (dat4 V c).flushed 1 t = ((cfg4.win 1).blk t).view.read (Elt Ideal) (Cert.Sage.logSoftmax (F := Ideal) (V c main_v76)) := by
  show (cfg4.win 1).cut (grid4.coords t) ((dat4 V c).after 1 t) = _
  rw [after4_1]
  unfold out4_1
  rw [View.canon_unit_zero off_zero]
  simp only [View.ld_unit_zero (S := S5000x40) off_zero]
  obtain ⟨e00, e01, e10, e11⟩ := blocks_at t
  funext j
  show k4_pay1 (F := Ideal) (iblk4 V c 0 t) j = Cert.Sage.logSoftmax (F := Ideal) (V c main_v76) (((cfg4.win 1).blk t).view.emb j)
  refine Cert.RowSoftmax.row_eq (V c main_v76) (iblk4 V c 0 t) j (((cfg4.win 1).blk t).view.emb j) ?_ ?_
  · intro k
    refine congrArg (V c main_v76) (funext fun a => Fin.ext ?_)
    match a with
    | ⟨0, _⟩ => show win4_0.index t (0 : Fin 2) * 5000 + 1 * (j 0).val = win4_1.index t (0 : Fin 2) * 5000 + 1 * (j 0).val; omega
    | ⟨1, _⟩ => show win4_0.index t (1 : Fin 2) * 40 + 1 * k.val = k.val; omega
  · refine congrArg (V c main_v76) (funext fun a => Fin.ext ?_)
    match a with
    | ⟨0, _⟩ => show win4_0.index t (0 : Fin 2) * 5000 + 1 * (j 0).val = win4_1.index t (0 : Fin 2) * 5000 + 1 * (j 0).val; omega
    | ⟨1, _⟩ => show win4_0.index t (1 : Fin 2) * 40 + 1 * (j 1).val = win4_1.index t (1 : Fin 2) * 40 + 1 * (j 1).val; omega

/-- An index of the array lies in point `t`'s block iff each coordinate lies in the block's range on its axis. -/
theorem mem_block (t : Fin cfg4.N) (i : S100000x40.Idx) :
    i ∈ ((cfg4.win 1).blk t).view.set ↔ ∀ a : Fin 2, win4_1.index t a * S5000x40.size a ≤ (i a).val ∧ (i a).val < win4_1.index t a * S5000x40.size a + S5000x40.size a := by
  show i ∈ ((View.whole main_v77).slice (win4_1.rect t)).set ↔ _
  rw [View.set_slice_whole, Rect.mem_set_unit]
  exact Iff.rfl

/-- Row `r` of the array is written by grid point `r / 5000`: the twenty row blocks fill the array. -/
theorem cover (i : S100000x40.Idx) : ∃ t : Fin cfg4.N, (cfg4.win 1).flush t = true ∧ i ∈ ((cfg4.win 1).blk t).view.set := by
  have hi0 : (i 0).val < 100000 := (i 0).isLt
  have hi1 : (i 1).val < 40 := (i 1).isLt
  have hN : cfg4.N = 20 := N_4
  have ht : (i 0).val / 5000 < cfg4.N := by rw [hN]; omega
  obtain ⟨e00, e01, e10, e11⟩ := blocks_at ⟨(i 0).val / 5000, ht⟩
  refine ⟨⟨(i 0).val / 5000, ht⟩, flush4_1 _, ?_⟩
  rw [mem_block]
  intro a
  match a with
  | ⟨0, _⟩ =>
    show win4_1.index ⟨(i 0).val / 5000, ht⟩ (0 : Fin 2) * 5000 ≤ (i 0).val ∧ (i 0).val < win4_1.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win4_1.index ⟨(i 0).val / 5000, ht⟩ (1 : Fin 2) * 40 ≤ (i 1).val ∧ (i 1).val < win4_1.index ⟨(i 0).val / 5000, ht⟩ (1 : Fin 2) * 40 + 40
    rw [e11]; omega

/-- THE ARRAY the region leaves: the row-wise log-softmax of the scores as the region finds them. -/
theorem final (c : Dev nD) : (dat4 V c).arrAt 1 cfg4.N = Cert.Sage.logSoftmax (F := Ideal) (V c main_v76) :=
  (dat4 V c).arrAt_eq_of_cover 1 _ (fun t _ => flushed_eq V c t) cover

end Cert.KernelIdeal.Softmax4

end
-- ==== Proof.Chain.lean ====
/-
  The idealized kernel's result as ONE function of the argument arrays: the buffer contents at the last segment boundary,
  read at the result buffer, walked back to the launch. Each region's output array is the whole-array function of its input
  arrays (the centred square, the dense step, the log-softmax); each host stretch between regions computes the neighbourhood
  mean of the array the region before it left; every other buffer a stretch or a region does not write keeps its contents.
  Composed, the result is the two-layer network of the specification, with each bias given as the reshaped 1 × n row.
-/
import proofs.«114936_j57904749084729_1_alg».proof.Proof.Gen.KernelIdeal.Frame
import proofs.«114936_j57904749084729_1_alg».proof.Proof.Spec
import proofs.«114936_j57904749084729_1_alg».proof.Proof.Square
import proofs.«114936_j57904749084729_1_alg».proof.Proof.Dense
import proofs.«114936_j57904749084729_1_alg».proof.Proof.Softmax

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.StableHlo (after after_of_writes_sub TRef)

local notation "⟪" r "⟫" => Proc.devRef (τ := τ) (sig := sig) Proc.tc r

/-! ## What each host stretch writes, and so what it keeps -/

abbrev wr0 : List (Ref sig .tc) := [main_v0, main_v1, main_v2, main_v3, main_cst, main_v4, main_cst_0, main_v5, main_v6, main_v7, main_cst_1, main_v8, main_v9, main_cst_2, main_v10, main_v11, main_cst_3, main_v12, main_v13, main_cst_4]
theorem wr0_covers : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr0_1 : List (Ref sig .tc) := [main_call0_v0, main_call0_v1, main_v14]
theorem wr0_1_covers : (hostOps0_1 : List (HloOp τ sig (Elt Ideal))).Forall fun op => op.writes ⊆ (wr0_1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr0_2 : List (Ref sig .tc) := [main_v15, main_v16, main_v17, main_v18, main_v19, main_v20, main_c, main_v21, main_v22, main_c_5, main_v23, main_v24, main_v25, main_v26, main_v27, main_cst_6, main_v28, main_v29, main_v30, main_v31, main_v32, main_v33]
theorem wr0_2_covers : (hostOps0_2 : List (HloOp τ sig (Elt Ideal))).Forall fun op => op.writes ⊆ (wr0_2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr1 : List (Ref sig .tc) := [main_c_7, main_v35, main_v36, main_c_8, main_v37, main_v38, main_v39, main_v40, main_v41, main_cst_9, main_v42, main_v43, main_v44, main_v45, main_v46, main_v47]
theorem wr1_covers : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr2 : List (Ref sig .tc) := [main_c_10, main_v49, main_v50, main_c_11, main_v51, main_v52, main_v53, main_v54, main_v55, main_cst_12, main_v56, main_v57, main_v58, main_v59, main_v60, main_v61]
theorem wr2_covers : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr3 : List (Ref sig .tc) := [main_c_13, main_v63, main_v64, main_c_14, main_v65, main_v66, main_v67, main_v68, main_v69, main_cst_15, main_v70, main_v71, main_v72, main_v73, main_v74, main_v75]
theorem wr3_covers : (hostOps3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## A called function's buffers: reading a value through a typed reference and back is the identity -/

theorem ofBuf_toBuf {T : BufTy} (x : TRef sig T) (v : T.Contents (Elt Ideal)) : x.ofBuf (x.toBuf v) = v := by
  cases x with
  | mk r h od us => cases h; rfl

theorem of_v9 (v : (⟨S100000, .i1⟩ : BufTy).Contents (Elt Ideal)) : (TRef.of (T := ⟨S100000, .i1⟩) main_v9).ofBuf v = v := rfl
theorem of_v13 (v : (⟨S100000, .f32⟩ : BufTy).Contents (Elt Ideal)) : (TRef.of (T := ⟨S100000, .f32⟩) main_v13).ofBuf v = v := rfl
theorem of_cst_4 (v : (⟨S_, .f32⟩ : BufTy).Contents (Elt Ideal)) : (TRef.of (T := ⟨S_, .f32⟩) main_cst_4).ofBuf v = v := rfl
theorem to_v14 (v : (⟨S100000, .f32⟩ : BufTy).Contents (Elt Ideal)) : (TRef.of (T := ⟨S100000, .f32⟩) main_v14).toBuf v = v := rfl

/-! ## What each host stretch computes, from any contents `U` -/

section Reads
variable (U : Valuation τ sig (Elt Ideal))

set_option maxHeartbeats 8000000 in
theorem read_row : after hostOps0 U ⟪main_v1⟫ = Cert.Sage.edgeRow0 (F := Ideal) (U ⟪main_arg7⟫) := by after_results_simp <;> rfl
set_option maxHeartbeats 8000000 in
theorem read_col : after hostOps0 U ⟪main_v3⟫ = Cert.Sage.edgeRow1 (F := Ideal) (U ⟪main_arg7⟫) := by after_results_simp <;> rfl
set_option maxHeartbeats 8000000 in
theorem read_dinv : after hostOps0_1 (after hostOps0 U) ⟪main_v14⟫ = Cert.Sage.degInv (F := Ideal) (Cert.Sage.edgeRow0 (F := Ideal) (U ⟪main_arg7⟫)) := by
  after_results_simp
  simp only [ofBuf_toBuf, of_v9, of_v13, of_cst_4, to_v14]
  rfl
set_option maxHeartbeats 8000000 in
theorem read_mean0 : after hostOps0_2 U ⟪main_v33⟫ = Cert.Sage.agg (F := Ideal) (U ⟪main_v1⟫) (U ⟪main_v3⟫) (U ⟪main_v14⟫) (U ⟪main_arg0⟫) := by
  after_results_simp <;> rfl
set_option maxHeartbeats 8000000 in
theorem read_wl1 : after hostOps0_2 U ⟪main_v15⟫ = transpose S128x128 [1, 0] (U ⟪main_arg1⟫) transposes_S128x128_S128x128_1_0 := by after_results_simp <;> rfl
set_option maxHeartbeats 8000000 in
theorem read_wr1 : after hostOps0_2 U ⟪main_v16⟫ = transpose S128x128 [1, 0] (U ⟪main_arg3⟫) transposes_S128x128_S128x128_1_0 := by after_results_simp <;> rfl
set_option maxHeartbeats 8000000 in
theorem read_b1 : after hostOps0_2 U ⟪main_v17⟫ = shapeCast S1x128 (U ⟪main_arg2⟫) shapeCasts_S128_S1x128 := by after_results_simp <;> rfl
set_option maxHeartbeats 8000000 in
theorem read_wl2 : after hostOps0_2 U ⟪main_v18⟫ = transpose S128x40 [1, 0] (U ⟪main_arg4⟫) transposes_S40x128_S128x40_1_0 := by after_results_simp <;> rfl
set_option maxHeartbeats 8000000 in
theorem read_wr2 : after hostOps0_2 U ⟪main_v19⟫ = transpose S128x40 [1, 0] (U ⟪main_arg6⟫) transposes_S40x128_S128x40_1_0 := by after_results_simp <;> rfl
set_option maxHeartbeats 8000000 in
theorem read_b2 : after hostOps0_2 U ⟪main_v20⟫ = shapeCast S1x40 (U ⟪main_arg5⟫) shapeCasts_S40_S1x40 := by after_results_simp <;> rfl
set_option maxHeartbeats 8000000 in
theorem read_mean1 : after hostOps1 U ⟪main_v47⟫ = Cert.Sage.agg (F := Ideal) (U ⟪main_v1⟫) (U ⟪main_v3⟫) (U ⟪main_v14⟫) (U ⟪main_v34⟫) := by
  after_results_simp <;> rfl
set_option maxHeartbeats 8000000 in
theorem read_mean2 : after hostOps2 U ⟪main_v61⟫ = Cert.Sage.agg (F := Ideal) (U ⟪main_v1⟫) (U ⟪main_v3⟫) (U ⟪main_v14⟫) (U ⟪main_v48⟫) := by
  after_results_simp <;> rfl
set_option maxHeartbeats 8000000 in
theorem read_mean3 : after hostOps3 U ⟪main_v75⟫ = Cert.Sage.agg (F := Ideal) (U ⟪main_v1⟫) (U ⟪main_v3⟫) (U ⟪main_v14⟫) (U ⟪main_v62⟫) := by
  after_results_simp <;> rfl

end Reads

/-! ## The boundaries, walked back to the launch -/

section Walk
variable (m : (ℓ : Loc nD τ sig) → Buf (Elt Ideal) ℓ) (ρ : Dev nD → PrngReg) (c : Dev nD)

theorem keep1 (r : Ref sig .tc) (h : r ∉ wr0) : W1 m ρ c ⟪r⟫ = W0 m ρ c ⟪r⟫ := after_of_writes_sub hostOps0 _ wr0_covers h
theorem keep2 (r : Ref sig .tc) (h : r ∉ wr0_1) : W2 m ρ c ⟪r⟫ = W1 m ρ c ⟪r⟫ := after_of_writes_sub hostOps0_1 _ wr0_1_covers h
theorem keep3 (r : Ref sig .tc) (h : r ∉ wr0_2) : W3 m ρ c ⟪r⟫ = W2 m ρ c ⟪r⟫ := after_of_writes_sub hostOps0_2 _ wr0_2_covers h
theorem keep5 (r : Ref sig .tc) (h : r ∉ wr1) : W5 m ρ c ⟪r⟫ = W4 m ρ c ⟪r⟫ := after_of_writes_sub hostOps1 _ wr1_covers h
theorem keep7 (r : Ref sig .tc) (h : r ∉ wr2) : W7 m ρ c ⟪r⟫ = W6 m ρ c ⟪r⟫ := after_of_writes_sub hostOps2 _ wr2_covers h
theorem keep9 (r : Ref sig .tc) (h : r ∉ wr3) : W9 m ρ c ⟪r⟫ = W8 m ρ c ⟪r⟫ := after_of_writes_sub hostOps3 _ wr3_covers h

/-- A buffer no region up to the second and no stretch between them touches keeps its contents from the first region's entry. -/
theorem from6 (r : Ref sig .tc) (h4 : ∀ w, Pipeline.arrRef spec0 w ≠ r) (h5 : r ∉ wr1) (h6 : ∀ w, Pipeline.arrRef spec1 w ≠ r) :
    W6 m ρ c ⟪r⟫ = W3 m ρ c ⟪r⟫ :=
  (W6_of_ne m ρ c r h6).trans ((keep5 m ρ c r h5).trans (W4_of_ne m ρ c r h4))
theorem from8 (r : Ref sig .tc) (h4 : ∀ w, Pipeline.arrRef spec0 w ≠ r) (h5 : r ∉ wr1) (h6 : ∀ w, Pipeline.arrRef spec1 w ≠ r)
    (h7 : r ∉ wr2) (h8 : ∀ w, Pipeline.arrRef spec2 w ≠ r) : W8 m ρ c ⟪r⟫ = W3 m ρ c ⟪r⟫ :=
  (W8_of_ne m ρ c r h8).trans ((keep7 m ρ c r h7).trans (from6 m ρ c r h4 h5 h6))
theorem from9 (r : Ref sig .tc) (h4 : ∀ w, Pipeline.arrRef spec0 w ≠ r) (h5 : r ∉ wr1) (h6 : ∀ w, Pipeline.arrRef spec1 w ≠ r)
    (h7 : r ∉ wr2) (h8 : ∀ w, Pipeline.arrRef spec2 w ≠ r) (h9 : r ∉ wr3) : W9 m ρ c ⟪r⟫ = W3 m ρ c ⟪r⟫ :=
  (keep9 m ρ c r h9).trans (from8 m ρ c r h4 h5 h6 h7 h8)

/-! ### Before the first region: the edge rows, the inverse degree, the transposed weights, the bias rows, the first mean -/

theorem at2_row : W2 m ρ c ⟪main_v1⟫ = (Cert.Sage.edgeRow0 (F := Ideal) (m ((c : Thread nD τ).loc main_arg7))) := (keep2 m ρ c main_v1 (by decide)).trans (read_row (W0 m ρ c))
theorem at2_col : W2 m ρ c ⟪main_v3⟫ = (Cert.Sage.edgeRow1 (F := Ideal) (m ((c : Thread nD τ).loc main_arg7))) := (keep2 m ρ c main_v3 (by decide)).trans (read_col (W0 m ρ c))
theorem at2_dinv : W2 m ρ c ⟪main_v14⟫ = (Cert.Sage.degInv (F := Ideal) (Cert.Sage.edgeRow0 (F := Ideal) (m ((c : Thread nD τ).loc main_arg7)))) := read_dinv (W0 m ρ c)
theorem at2_arg0 : W2 m ρ c ⟪main_arg0⟫ = (m ((c : Thread nD τ).loc main_arg0)) := (keep2 m ρ c main_arg0 (by decide)).trans ((keep1 m ρ c main_arg0 (by decide)).trans rfl)
theorem at2_arg1 : W2 m ρ c ⟪main_arg1⟫ = (m ((c : Thread nD τ).loc main_arg1)) := (keep2 m ρ c main_arg1 (by decide)).trans ((keep1 m ρ c main_arg1 (by decide)).trans rfl)
theorem at2_arg2 : W2 m ρ c ⟪main_arg2⟫ = (m ((c : Thread nD τ).loc main_arg2)) := (keep2 m ρ c main_arg2 (by decide)).trans ((keep1 m ρ c main_arg2 (by decide)).trans rfl)
theorem at2_arg3 : W2 m ρ c ⟪main_arg3⟫ = (m ((c : Thread nD τ).loc main_arg3)) := (keep2 m ρ c main_arg3 (by decide)).trans ((keep1 m ρ c main_arg3 (by decide)).trans rfl)
theorem at2_arg4 : W2 m ρ c ⟪main_arg4⟫ = (m ((c : Thread nD τ).loc main_arg4)) := (keep2 m ρ c main_arg4 (by decide)).trans ((keep1 m ρ c main_arg4 (by decide)).trans rfl)
theorem at2_arg5 : W2 m ρ c ⟪main_arg5⟫ = (m ((c : Thread nD τ).loc main_arg5)) := (keep2 m ρ c main_arg5 (by decide)).trans ((keep1 m ρ c main_arg5 (by decide)).trans rfl)
theorem at2_arg6 : W2 m ρ c ⟪main_arg6⟫ = (m ((c : Thread nD τ).loc main_arg6)) := (keep2 m ρ c main_arg6 (by decide)).trans ((keep1 m ρ c main_arg6 (by decide)).trans rfl)

theorem at3_row : W3 m ρ c ⟪main_v1⟫ = (Cert.Sage.edgeRow0 (F := Ideal) (m ((c : Thread nD τ).loc main_arg7))) := (keep3 m ρ c main_v1 (by decide)).trans (at2_row m ρ c)
theorem at3_col : W3 m ρ c ⟪main_v3⟫ = (Cert.Sage.edgeRow1 (F := Ideal) (m ((c : Thread nD τ).loc main_arg7))) := (keep3 m ρ c main_v3 (by decide)).trans (at2_col m ρ c)
theorem at3_dinv : W3 m ρ c ⟪main_v14⟫ = (Cert.Sage.degInv (F := Ideal) (Cert.Sage.edgeRow0 (F := Ideal) (m ((c : Thread nD τ).loc main_arg7)))) := (keep3 m ρ c main_v14 (by decide)).trans (at2_dinv m ρ c)
theorem at3_arg0 : W3 m ρ c ⟪main_arg0⟫ = (m ((c : Thread nD τ).loc main_arg0)) := (keep3 m ρ c main_arg0 (by decide)).trans (at2_arg0 m ρ c)
theorem at3_mean : W3 m ρ c ⟪main_v33⟫ = (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (m ((c : Thread nD τ).loc main_arg0))) :=
  (read_mean0 (W2 m ρ c)).trans (congr (congr (congr (congrArg (Cert.Sage.agg (F := Ideal)) (at2_row m ρ c)) (at2_col m ρ c)) (at2_dinv m ρ c)) (at2_arg0 m ρ c))
theorem at3_wl1 : W3 m ρ c ⟪main_v15⟫ = (transpose S128x128 [1, 0] (m ((c : Thread nD τ).loc main_arg1)) transposes_S128x128_S128x128_1_0) :=
  (read_wl1 (W2 m ρ c)).trans (congrArg (fun a => transpose S128x128 [1, 0] a transposes_S128x128_S128x128_1_0) (at2_arg1 m ρ c))
theorem at3_wr1 : W3 m ρ c ⟪main_v16⟫ = (transpose S128x128 [1, 0] (m ((c : Thread nD τ).loc main_arg3)) transposes_S128x128_S128x128_1_0) :=
  (read_wr1 (W2 m ρ c)).trans (congrArg (fun a => transpose S128x128 [1, 0] a transposes_S128x128_S128x128_1_0) (at2_arg3 m ρ c))
theorem at3_b1 : W3 m ρ c ⟪main_v17⟫ = (shapeCast S1x128 (m ((c : Thread nD τ).loc main_arg2)) shapeCasts_S128_S1x128) :=
  (read_b1 (W2 m ρ c)).trans (congrArg (fun a => shapeCast S1x128 a shapeCasts_S128_S1x128) (at2_arg2 m ρ c))
theorem at3_wl2 : W3 m ρ c ⟪main_v18⟫ = (transpose S128x40 [1, 0] (m ((c : Thread nD τ).loc main_arg4)) transposes_S40x128_S128x40_1_0) :=
  (read_wl2 (W2 m ρ c)).trans (congrArg (fun a => transpose S128x40 [1, 0] a transposes_S40x128_S128x40_1_0) (at2_arg4 m ρ c))
theorem at3_wr2 : W3 m ρ c ⟪main_v19⟫ = (transpose S128x40 [1, 0] (m ((c : Thread nD τ).loc main_arg6)) transposes_S40x128_S128x40_1_0) :=
  (read_wr2 (W2 m ρ c)).trans (congrArg (fun a => transpose S128x40 [1, 0] a transposes_S40x128_S128x40_1_0) (at2_arg6 m ρ c))
theorem at3_b2 : W3 m ρ c ⟪main_v20⟫ = (shapeCast S1x40 (m ((c : Thread nD τ).loc main_arg5)) shapeCasts_S40_S1x40) :=
  (read_b2 (W2 m ρ c)).trans (congrArg (fun a => shapeCast S1x40 a shapeCasts_S40_S1x40) (at2_arg5 m ρ c))

/-! ### The first layer -/

theorem at4_sq : W4 m ρ c ⟪main_v34⟫ = Cert.Sage.csq (F := Ideal) (m ((c : Thread nD τ).loc main_arg0)) (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (m ((c : Thread nD τ).loc main_arg0))) :=
  (W4_arr m ρ c 2).trans ((Cert.KernelIdeal.Square0.final (V3 m ρ) c).trans
    (congr (congrArg (Cert.Sage.csq (F := Ideal)) (at3_arg0 m ρ c)) (at3_mean m ρ c)))
theorem at4_arg0 : W4 m ρ c ⟪main_arg0⟫ = (m ((c : Thread nD τ).loc main_arg0)) :=
  ((W4_arr m ρ c 0).trans (((dat0 (V3 m ρ) c).arrAt_in 0 rfl _).trans (A_eq0 (V3 m ρ) c 0))).trans (at3_arg0 m ρ c)
theorem at5_mean : W5 m ρ c ⟪main_v47⟫ = (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (Cert.Sage.csq (F := Ideal) (m ((c : Thread nD τ).loc main_arg0)) (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (m ((c : Thread nD τ).loc main_arg0))))) :=
  (read_mean1 (W4 m ρ c)).trans (congr (congr (congr (congrArg (Cert.Sage.agg (F := Ideal)) ((W4_of_ne m ρ c main_v1 (by decide)).trans (at3_row m ρ c))) ((W4_of_ne m ρ c main_v3 (by decide)).trans (at3_col m ρ c))) ((W4_of_ne m ρ c main_v14 (by decide)).trans (at3_dinv m ρ c))) (at4_sq m ρ c))
theorem at5_arg0 : W5 m ρ c ⟪main_arg0⟫ = (m ((c : Thread nD τ).loc main_arg0)) := (keep5 m ρ c main_arg0 (by decide)).trans (at4_arg0 m ρ c)
theorem at5_wl1 : W5 m ρ c ⟪main_v15⟫ = (transpose S128x128 [1, 0] (m ((c : Thread nD τ).loc main_arg1)) transposes_S128x128_S128x128_1_0) :=
  (keep5 m ρ c main_v15 (by decide)).trans ((W4_of_ne m ρ c main_v15 (by decide)).trans (at3_wl1 m ρ c))
theorem at5_wr1 : W5 m ρ c ⟪main_v16⟫ = (transpose S128x128 [1, 0] (m ((c : Thread nD τ).loc main_arg3)) transposes_S128x128_S128x128_1_0) :=
  (keep5 m ρ c main_v16 (by decide)).trans ((W4_of_ne m ρ c main_v16 (by decide)).trans (at3_wr1 m ρ c))
theorem at5_b1 : W5 m ρ c ⟪main_v17⟫ = (shapeCast S1x128 (m ((c : Thread nD τ).loc main_arg2)) shapeCasts_S128_S1x128) :=
  (keep5 m ρ c main_v17 (by decide)).trans ((W4_of_ne m ρ c main_v17 (by decide)).trans (at3_b1 m ρ c))

/-- The hidden features: what the first dense region leaves. -/
theorem at6_hidden : W6 m ρ c ⟪main_v48⟫ = (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) :=
  (W6_arr m ρ c 5).trans ((Cert.KernelIdeal.Dense1.final (V5 m ρ) c).trans
    (congr (congr (congr (congr (congrArg (Cert.Sage.dense1 (F := Ideal)) (at5_mean m ρ c)) (at5_arg0 m ρ c)) (at5_wl1 m ρ c)) (at5_b1 m ρ c)) (at5_wr1 m ρ c)))

/-! ### The second layer -/

theorem at7_mean : W7 m ρ c ⟪main_v61⟫ = (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7)))) :=
  (read_mean2 (W6 m ρ c)).trans (congr (congr (congr (congrArg (Cert.Sage.agg (F := Ideal)) ((from6 m ρ c main_v1 (by decide) (by decide) (by decide)).trans (at3_row m ρ c))) ((from6 m ρ c main_v3 (by decide) (by decide) (by decide)).trans (at3_col m ρ c))) ((from6 m ρ c main_v14 (by decide) (by decide) (by decide)).trans (at3_dinv m ρ c))) (at6_hidden m ρ c))
theorem at7_hidden : W7 m ρ c ⟪main_v48⟫ = (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) := (keep7 m ρ c main_v48 (by decide)).trans (at6_hidden m ρ c)
theorem at8_sq : W8 m ρ c ⟪main_v62⟫ = Cert.Sage.csq (F := Ideal) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7)))) :=
  (W8_arr m ρ c 2).trans ((Cert.KernelIdeal.Square2.final (V7 m ρ) c).trans
    (congr (congrArg (Cert.Sage.csq (F := Ideal)) (at7_hidden m ρ c)) (at7_mean m ρ c)))
theorem at8_hidden : W8 m ρ c ⟪main_v48⟫ = (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) :=
  ((W8_arr m ρ c 0).trans (((dat2 (V7 m ρ) c).arrAt_in 0 rfl _).trans (A_eq2 (V7 m ρ) c 0))).trans (at7_hidden m ρ c)
theorem at9_mean : W9 m ρ c ⟪main_v75⟫ = (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (Cert.Sage.csq (F := Ideal) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7)))))) :=
  (read_mean3 (W8 m ρ c)).trans (congr (congr (congr (congrArg (Cert.Sage.agg (F := Ideal)) ((from8 m ρ c main_v1 (by decide) (by decide) (by decide) (by decide) (by decide)).trans (at3_row m ρ c))) ((from8 m ρ c main_v3 (by decide) (by decide) (by decide) (by decide) (by decide)).trans (at3_col m ρ c))) ((from8 m ρ c main_v14 (by decide) (by decide) (by decide) (by decide) (by decide)).trans (at3_dinv m ρ c))) (at8_sq m ρ c))
theorem at9_hidden : W9 m ρ c ⟪main_v48⟫ = (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) := (keep9 m ρ c main_v48 (by decide)).trans (at8_hidden m ρ c)
theorem at9_wl2 : W9 m ρ c ⟪main_v18⟫ = (transpose S128x40 [1, 0] (m ((c : Thread nD τ).loc main_arg4)) transposes_S40x128_S128x40_1_0) :=
  (from9 m ρ c main_v18 (by decide) (by decide) (by decide) (by decide) (by decide) (by decide)).trans (at3_wl2 m ρ c)
theorem at9_wr2 : W9 m ρ c ⟪main_v19⟫ = (transpose S128x40 [1, 0] (m ((c : Thread nD τ).loc main_arg6)) transposes_S40x128_S128x40_1_0) :=
  (from9 m ρ c main_v19 (by decide) (by decide) (by decide) (by decide) (by decide) (by decide)).trans (at3_wr2 m ρ c)
theorem at9_b2 : W9 m ρ c ⟪main_v20⟫ = (shapeCast S1x40 (m ((c : Thread nD τ).loc main_arg5)) shapeCasts_S40_S1x40) :=
  (from9 m ρ c main_v20 (by decide) (by decide) (by decide) (by decide) (by decide) (by decide)).trans (at3_b2 m ρ c)

/-- The class scores: what the second dense region leaves. -/
theorem at10_scores : W10 m ρ c ⟪main_v76⟫ = Cert.Sage.dense2 (F := Ideal) (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (Cert.Sage.csq (F := Ideal) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) (Cert.Sage.agg (F := Ideal) (Cert.Sage.edgeRow0 (F := Ideal) (m ((c : Thread nD τ).loc main_arg7))) (Cert.Sage.edgeRow1 (F := Ideal) (m ((c : Thread nD τ).loc main_arg7))) (Cert.Sage.degInv (F := Ideal) (Cert.Sage.edgeRow0 (F := Ideal) (m ((c : Thread nD τ).loc main_arg7)))) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7)))))) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) (transpose S128x40 [1, 0] (m ((c : Thread nD τ).loc main_arg4)) transposes_S40x128_S128x40_1_0) (shapeCast S1x40 (m ((c : Thread nD τ).loc main_arg5)) shapeCasts_S40_S1x40) (transpose S128x40 [1, 0] (m ((c : Thread nD τ).loc main_arg6)) transposes_S40x128_S128x40_1_0) :=
  (W10_arr m ρ c 5).trans ((Cert.KernelIdeal.Dense3.final (V9 m ρ) c).trans
    (congr (congr (congr (congr (congrArg (Cert.Sage.dense2 (F := Ideal)) (at9_mean m ρ c)) (at9_hidden m ρ c)) (at9_wl2 m ρ c)) (at9_b2 m ρ c)) (at9_wr2 m ρ c)))

/-- THE RESULT: the last boundary's contents at the result buffer are the specification's network of the launch's argument
    arrays, each bias as its reshaped row. -/
theorem result : W11 m ρ c ⟪main_v77⟫ = Cert.Sage.output (F := Ideal) (Cert.Sage.hidden (F := Ideal) (m ((c : Thread nD τ).loc main_arg0)) (m ((c : Thread nD τ).loc main_arg1)) (shapeCast S1x128 (m ((c : Thread nD τ).loc main_arg2)) shapeCasts_S128_S1x128) (m ((c : Thread nD τ).loc main_arg3)) (m ((c : Thread nD τ).loc main_arg7))) (m ((c : Thread nD τ).loc main_arg4)) (shapeCast S1x40 (m ((c : Thread nD τ).loc main_arg5)) shapeCasts_S40_S1x40) (m ((c : Thread nD τ).loc main_arg6)) (m ((c : Thread nD τ).loc main_arg7)) :=
  (W11_arr m ρ c 1).trans ((Cert.KernelIdeal.Softmax4.final (V10 m ρ) c).trans
    (congrArg (Cert.Sage.logSoftmax (F := Ideal)) (at10_scores m ρ c)))

end Walk

end Cert.KernelIdeal.Chain

end
-- ==== Proof.RefChain.lean ====
/-
  The idealized reference's result as ONE function of the argument arrays: the fold of its 141 host operations over the
  launch contents, read at the result buffer, stretch by stretch. The ten stretches are the inverse degree; the neighbourhood
  mean; the centred square; the mean of the squares; the first dense step with its rectifier; the same four for the second
  layer; the log-softmax. Each stretch writes one array the next stretches read and keeps every buffer it does not write, so the
  fold composes to the two-layer network of the specification, with each bias broadcast to a 1 × n row.
-/
import proofs.«114936_j57904749084729_1_alg».proof.Proof.RefRun
import proofs.«114936_j57904749084729_1_alg».proof.Proof.Spec
import Idealize.ShloMosaic.PureOps.Ideal

noncomputable section

namespace Cert.ReferenceIdeal.Chain

open Cert.ReferenceIdeal Cert.ReferenceIdeal.Gen Cert.ReferenceIdeal.ValueP
open Idealize.ShloMosaic Idealize.ShloMosaic.TcCoe Idealize.SL.Sem Idealize.ShloMosaic.StableHlo

local notation "⟪" r "⟫" => Proc.devRef (τ := τ) (sig := sig) Proc.tc r

/-- The contents after two stretches run one after the other. -/
theorem after_append (l₁ l₂ : List (HloOp τ sig (Elt Ideal))) (U : Valuation τ sig (Elt Ideal)) :
    after (l₁ ++ l₂) U = after l₂ (after l₁ U) := by
  induction l₁ generalizing U with
  | nil => rfl
  | cons op l ih => exact ih _

/-! ## What each stretch writes, and so what it keeps -/

abbrev wrA : List (Ref sig .tc) := [main_v0, main_v1, main_v2, main_v3, main_cst, main_v4, main_cst_0, main_v5, main_v6, main_v7, main_cst_1, main_v8, main_v9, main_cst_2, main_v10, main_v11, main_cst_3, main_v12, main_v13, main_cst_4, main_call0_v0, main_call0_v1, main_v14]
theorem wrA_covers : (opsA : List (HloOp τ sig (Elt Ideal))).Forall fun op => op.writes ⊆ (wrA.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepA (U : Valuation τ sig (Elt Ideal)) (r : Ref sig .tc) (h : r ∉ wrA) : after opsA U ⟪r⟫ = U ⟪r⟫ :=
  after_of_writes_sub opsA U wrA_covers h

abbrev wrB : List (Ref sig .tc) := [main_c, main_v15, main_v16, main_c_5, main_v17, main_v18, main_v19, main_v20, main_v21, main_cst_6, main_v22, main_v23, main_v24, main_v25, main_v26, main_v27]
theorem wrB_covers : (opsB : List (HloOp τ sig (Elt Ideal))).Forall fun op => op.writes ⊆ (wrB.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepB (U : Valuation τ sig (Elt Ideal)) (r : Ref sig .tc) (h : r ∉ wrB) : after opsB U ⟪r⟫ = U ⟪r⟫ :=
  after_of_writes_sub opsB U wrB_covers h

abbrev wrC : List (Ref sig .tc) := [main_v28, main_v29]
theorem wrC_covers : (opsC : List (HloOp τ sig (Elt Ideal))).Forall fun op => op.writes ⊆ (wrC.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepC (U : Valuation τ sig (Elt Ideal)) (r : Ref sig .tc) (h : r ∉ wrC) : after opsC U ⟪r⟫ = U ⟪r⟫ :=
  after_of_writes_sub opsC U wrC_covers h

abbrev wrD : List (Ref sig .tc) := [main_c_7, main_v30, main_v31, main_c_8, main_v32, main_v33, main_v34, main_v35, main_v36, main_cst_9, main_v37, main_v38, main_v39, main_v40, main_v41, main_v42]
theorem wrD_covers : (opsD : List (HloOp τ sig (Elt Ideal))).Forall fun op => op.writes ⊆ (wrD.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepD (U : Valuation τ sig (Elt Ideal)) (r : Ref sig .tc) (h : r ∉ wrD) : after opsD U ⟪r⟫ = U ⟪r⟫ :=
  after_of_writes_sub opsD U wrD_covers h

abbrev wrE : List (Ref sig .tc) := [main_cst_10, main_v43, main_v44, main_cst_11, main_call1_v0, main_call1_v1, main_v45, main_v46, main_v47, main_v48, main_v49, main_v50, main_v51, main_v52, main_v53, main_v54, main_call2_cst, main_call2_v0, main_v55]
theorem wrE_covers : (opsE : List (HloOp τ sig (Elt Ideal))).Forall fun op => op.writes ⊆ (wrE.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepE (U : Valuation τ sig (Elt Ideal)) (r : Ref sig .tc) (h : r ∉ wrE) : after opsE U ⟪r⟫ = U ⟪r⟫ :=
  after_of_writes_sub opsE U wrE_covers h

abbrev wrF : List (Ref sig .tc) := [main_c_12, main_v56, main_v57, main_c_13, main_v58, main_v59, main_v60, main_v61, main_v62, main_cst_14, main_v63, main_v64, main_v65, main_v66, main_v67, main_v68]
theorem wrF_covers : (opsF : List (HloOp τ sig (Elt Ideal))).Forall fun op => op.writes ⊆ (wrF.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepF (U : Valuation τ sig (Elt Ideal)) (r : Ref sig .tc) (h : r ∉ wrF) : after opsF U ⟪r⟫ = U ⟪r⟫ :=
  after_of_writes_sub opsF U wrF_covers h

abbrev wrG : List (Ref sig .tc) := [main_v69, main_v70]
theorem wrG_covers : (opsG : List (HloOp τ sig (Elt Ideal))).Forall fun op => op.writes ⊆ (wrG.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepG (U : Valuation τ sig (Elt Ideal)) (r : Ref sig .tc) (h : r ∉ wrG) : after opsG U ⟪r⟫ = U ⟪r⟫ :=
  after_of_writes_sub opsG U wrG_covers h

abbrev wrH : List (Ref sig .tc) := [main_c_15, main_v71, main_v72, main_c_16, main_v73, main_v74, main_v75, main_v76, main_v77, main_cst_17, main_v78, main_v79, main_v80, main_v81, main_v82, main_v83]
theorem wrH_covers : (opsH : List (HloOp τ sig (Elt Ideal))).Forall fun op => op.writes ⊆ (wrH.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepH (U : Valuation τ sig (Elt Ideal)) (r : Ref sig .tc) (h : r ∉ wrH) : after opsH U ⟪r⟫ = U ⟪r⟫ :=
  after_of_writes_sub opsH U wrH_covers h

abbrev wrI : List (Ref sig .tc) := [main_cst_18, main_v84, main_v85, main_cst_19, main_call3_v0, main_call3_v1, main_v86, main_v87, main_v88, main_v89, main_v90, main_v91, main_v92, main_v93, main_v94, main_v95]
theorem wrI_covers : (opsI : List (HloOp τ sig (Elt Ideal))).Forall fun op => op.writes ⊆ (wrI.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepI (U : Valuation τ sig (Elt Ideal)) (r : Ref sig .tc) (h : r ∉ wrI) : after opsI U ⟪r⟫ = U ⟪r⟫ :=
  after_of_writes_sub opsI U wrI_covers h

abbrev wrJ : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v96]
theorem wrJ_covers : (opsJ : List (HloOp τ sig (Elt Ideal))).Forall fun op => op.writes ⊆ (wrJ.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem keepJ (U : Valuation τ sig (Elt Ideal)) (r : Ref sig .tc) (h : r ∉ wrJ) : after opsJ U ⟪r⟫ = U ⟪r⟫ :=
  after_of_writes_sub opsJ U wrJ_covers h

/-! ## A called function's buffers: reading a value through a typed reference and back is the identity -/

theorem ofBuf_toBuf {T : BufTy} (x : TRef sig T) (v : T.Contents (Elt Ideal)) : x.ofBuf (x.toBuf v) = v := by
  cases x with
  | mk r h od us => cases h; rfl

theorem of_v9 (v : (⟨S100000, .i1⟩ : BufTy).Contents (Elt Ideal)) : (TRef.of (T := ⟨S100000, .i1⟩) main_v9).ofBuf v = v := rfl
theorem of_v13 (v : (⟨S100000, .f32⟩ : BufTy).Contents (Elt Ideal)) : (TRef.of (T := ⟨S100000, .f32⟩) main_v13).ofBuf v = v := rfl
theorem of_cst_4 (v : (⟨S_, .f32⟩ : BufTy).Contents (Elt Ideal)) : (TRef.of (T := ⟨S_, .f32⟩) main_cst_4).ofBuf v = v := rfl
theorem to_v14 (v : (⟨S100000, .f32⟩ : BufTy).Contents (Elt Ideal)) : (TRef.of (T := ⟨S100000, .f32⟩) main_v14).toBuf v = v := rfl
theorem of_v95 (v : (⟨S100000x40, .f32⟩ : BufTy).Contents (Elt Ideal)) : (TRef.of (T := ⟨S100000x40, .f32⟩) main_v95).ofBuf v = v := rfl
theorem to_v96 (v : (⟨S100000x40, .f32⟩ : BufTy).Contents (Elt Ideal)) : (TRef.of (T := ⟨S100000x40, .f32⟩) main_v96).toBuf v = v := rfl

/-! ## What each stretch computes, from any contents `U` -/

section Reads
variable (U : Valuation τ sig (Elt Ideal))

set_option maxHeartbeats 8000000 in
theorem readA_row : after opsA U ⟪main_v1⟫ = Cert.Sage.edgeRow0 (F := Ideal) (U ⟪main_arg7⟫) := by after_results_simp <;> rfl
set_option maxHeartbeats 8000000 in
theorem readA_col : after opsA U ⟪main_v3⟫ = Cert.Sage.edgeRow1 (F := Ideal) (U ⟪main_arg7⟫) := by after_results_simp <;> rfl
set_option maxHeartbeats 8000000 in
theorem readA_dinv : after opsA U ⟪main_v14⟫ = Cert.Sage.degInv (F := Ideal) (Cert.Sage.edgeRow0 (F := Ideal) (U ⟪main_arg7⟫)) := by
  after_results_simp
  simp only [ofBuf_toBuf, of_v9, of_v13, of_cst_4, to_v14]
  rfl
set_option maxHeartbeats 8000000 in
theorem readB : after opsB U ⟪main_v27⟫ = Cert.Sage.agg (F := Ideal) (U ⟪main_v1⟫) (U ⟪main_v3⟫) (U ⟪main_v14⟫) (U ⟪main_arg0⟫) := by after_results_simp <;> rfl
set_option maxHeartbeats 8000000 in
theorem readC : after opsC U ⟪main_v29⟫ = Cert.Sage.csq (F := Ideal) (U ⟪main_arg0⟫) (U ⟪main_v27⟫) := by after_results_simp <;> rfl
set_option maxHeartbeats 8000000 in
theorem readD : after opsD U ⟪main_v42⟫ = Cert.Sage.agg (F := Ideal) (U ⟪main_v1⟫) (U ⟪main_v3⟫) (U ⟪main_v14⟫) (U ⟪main_v29⟫) := by after_results_simp <;> rfl
set_option maxHeartbeats 8000000 in
theorem readE : after opsE U ⟪main_v55⟫ = Cert.Sage.dense1 (F := Ideal) (U ⟪main_v42⟫) (U ⟪main_arg0⟫)
    (transpose S128x128 [1, 0] (U ⟪main_arg1⟫) transposes_S128x128_S128x128_1_0) (broadcastInDim S1x128 ![1] bcast_S128_S1x128_1 (U ⟪main_arg2⟫))
    (transpose S128x128 [1, 0] (U ⟪main_arg3⟫) transposes_S128x128_S128x128_1_0) := by after_results_simp <;> rfl
set_option maxHeartbeats 8000000 in
theorem readF : after opsF U ⟪main_v68⟫ = Cert.Sage.agg (F := Ideal) (U ⟪main_v1⟫) (U ⟪main_v3⟫) (U ⟪main_v14⟫) (U ⟪main_v55⟫) := by after_results_simp <;> rfl
set_option maxHeartbeats 8000000 in
theorem readG : after opsG U ⟪main_v70⟫ = Cert.Sage.csq (F := Ideal) (U ⟪main_v55⟫) (U ⟪main_v68⟫) := by after_results_simp <;> rfl
set_option maxHeartbeats 8000000 in
theorem readH : after opsH U ⟪main_v83⟫ = Cert.Sage.agg (F := Ideal) (U ⟪main_v1⟫) (U ⟪main_v3⟫) (U ⟪main_v14⟫) (U ⟪main_v70⟫) := by after_results_simp <;> rfl
set_option maxHeartbeats 8000000 in
theorem readI : after opsI U ⟪main_v95⟫ = Cert.Sage.dense2 (F := Ideal) (U ⟪main_v83⟫) (U ⟪main_v55⟫)
    (transpose S128x40 [1, 0] (U ⟪main_arg4⟫) transposes_S40x128_S128x40_1_0) (broadcastInDim S1x40 ![1] bcast_S40_S1x40_1 (U ⟪main_arg5⟫))
    (transpose S128x40 [1, 0] (U ⟪main_arg6⟫) transposes_S40x128_S128x40_1_0) := by after_results_simp <;> rfl
set_option maxHeartbeats 8000000 in
theorem readJ : after opsJ U ⟪main_v96⟫ = Cert.Sage.logSoftmax (F := Ideal) (U ⟪main_v95⟫) := by
  after_results_simp
  simp only [ofBuf_toBuf, of_v95, to_v96]
  rfl

end Reads

/-! ## The fold, stretch by stretch -/

section Walk
variable (m : (ℓ : Loc nD τ sig) → Buf (Elt Ideal) ℓ) (c : Dev nD)

abbrev RA : Valuation τ sig (Elt Ideal) := after opsA (launchContents m c)
abbrev RB : Valuation τ sig (Elt Ideal) := after opsB (RA m c)
abbrev RC : Valuation τ sig (Elt Ideal) := after opsC (RB m c)
abbrev RD : Valuation τ sig (Elt Ideal) := after opsD (RC m c)
abbrev RE : Valuation τ sig (Elt Ideal) := after opsE (RD m c)
abbrev RF : Valuation τ sig (Elt Ideal) := after opsF (RE m c)
abbrev RG : Valuation τ sig (Elt Ideal) := after opsG (RF m c)
abbrev RH : Valuation τ sig (Elt Ideal) := after opsH (RG m c)
abbrev RI : Valuation τ sig (Elt Ideal) := after opsI (RH m c)
abbrev RJ : Valuation τ sig (Elt Ideal) := after opsJ (RI m c)

/-- The whole fold is the ten stretches' folds, one after the other. -/
theorem fold_eq : after (ops (F := Ideal)) (launchContents m c) = RJ m c := by
  rw [ops_split]
  simp only [after_append]

theorem rowA : RA m c ⟪main_v1⟫ = (Cert.Sage.edgeRow0 (F := Ideal) (m ((c.tc : Thread nD τ).loc main_arg7))) := readA_row (launchContents m c)
theorem colA : RA m c ⟪main_v3⟫ = (Cert.Sage.edgeRow1 (F := Ideal) (m ((c.tc : Thread nD τ).loc main_arg7))) := readA_col (launchContents m c)
theorem dinvA : RA m c ⟪main_v14⟫ = (Cert.Sage.degInv (F := Ideal) (Cert.Sage.edgeRow0 (F := Ideal) (m ((c.tc : Thread nD τ).loc main_arg7)))) := readA_dinv (launchContents m c)

theorem meanB : RB m c ⟪main_v27⟫ = (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (m ((c.tc : Thread nD τ).loc main_arg0))) :=
  (readB (RA m c)).trans (congr (congr (congr (congrArg (Cert.Sage.agg (F := Ideal)) (rowA m c)) (colA m c)) (dinvA m c)) ((keepA (launchContents m c) main_arg0 (by decide)).trans rfl))
theorem squareC : RC m c ⟪main_v29⟫ = Cert.Sage.csq (F := Ideal) (m ((c.tc : Thread nD τ).loc main_arg0)) (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (m ((c.tc : Thread nD τ).loc main_arg0))) :=
  (readC (RB m c)).trans (congr (congrArg (Cert.Sage.csq (F := Ideal)) ((keepB (RA m c) main_arg0 (by decide)).trans ((keepA (launchContents m c) main_arg0 (by decide)).trans rfl))) (meanB m c))
theorem meanD : RD m c ⟪main_v42⟫ = (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (Cert.Sage.csq (F := Ideal) (m ((c.tc : Thread nD τ).loc main_arg0)) (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (m ((c.tc : Thread nD τ).loc main_arg0))))) :=
  (readD (RC m c)).trans (congr (congr (congr (congrArg (Cert.Sage.agg (F := Ideal)) ((keepC (RB m c) main_v1 (by decide)).trans ((keepB (RA m c) main_v1 (by decide)).trans (rowA m c)))) ((keepC (RB m c) main_v3 (by decide)).trans ((keepB (RA m c) main_v3 (by decide)).trans (colA m c)))) ((keepC (RB m c) main_v14 (by decide)).trans ((keepB (RA m c) main_v14 (by decide)).trans (dinvA m c)))) (squareC m c))
/-- The hidden features. -/
theorem hiddenE : RE m c ⟪main_v55⟫ = (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7))) :=
  (readE (RD m c)).trans (congr (congr (congr (congr (congrArg (Cert.Sage.dense1 (F := Ideal)) (meanD m c)) ((keepD (RC m c) main_arg0 (by decide)).trans ((keepC (RB m c) main_arg0 (by decide)).trans ((keepB (RA m c) main_arg0 (by decide)).trans ((keepA (launchContents m c) main_arg0 (by decide)).trans rfl)))))
    (congrArg (fun a => transpose S128x128 [1, 0] a transposes_S128x128_S128x128_1_0) ((keepD (RC m c) main_arg1 (by decide)).trans ((keepC (RB m c) main_arg1 (by decide)).trans ((keepB (RA m c) main_arg1 (by decide)).trans ((keepA (launchContents m c) main_arg1 (by decide)).trans rfl))))))
    (congrArg (fun a => broadcastInDim S1x128 ![1] bcast_S128_S1x128_1 a) ((keepD (RC m c) main_arg2 (by decide)).trans ((keepC (RB m c) main_arg2 (by decide)).trans ((keepB (RA m c) main_arg2 (by decide)).trans ((keepA (launchContents m c) main_arg2 (by decide)).trans rfl))))))
    (congrArg (fun a => transpose S128x128 [1, 0] a transposes_S128x128_S128x128_1_0) ((keepD (RC m c) main_arg3 (by decide)).trans ((keepC (RB m c) main_arg3 (by decide)).trans ((keepB (RA m c) main_arg3 (by decide)).trans ((keepA (launchContents m c) main_arg3 (by decide)).trans rfl))))))
theorem meanF : RF m c ⟪main_v68⟫ = (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7)))) :=
  (readF (RE m c)).trans (congr (congr (congr (congrArg (Cert.Sage.agg (F := Ideal)) ((keepE (RD m c) main_v1 (by decide)).trans ((keepD (RC m c) main_v1 (by decide)).trans ((keepC (RB m c) main_v1 (by decide)).trans ((keepB (RA m c) main_v1 (by decide)).trans (rowA m c)))))) ((keepE (RD m c) main_v3 (by decide)).trans ((keepD (RC m c) main_v3 (by decide)).trans ((keepC (RB m c) main_v3 (by decide)).trans ((keepB (RA m c) main_v3 (by decide)).trans (colA m c)))))) ((keepE (RD m c) main_v14 (by decide)).trans ((keepD (RC m c) main_v14 (by decide)).trans ((keepC (RB m c) main_v14 (by decide)).trans ((keepB (RA m c) main_v14 (by decide)).trans (dinvA m c)))))) (hiddenE m c))
theorem squareG : RG m c ⟪main_v70⟫ = Cert.Sage.csq (F := Ideal) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7))) (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7)))) :=
  (readG (RF m c)).trans (congr (congrArg (Cert.Sage.csq (F := Ideal)) ((keepF (RE m c) main_v55 (by decide)).trans (hiddenE m c))) (meanF m c))
theorem meanH : RH m c ⟪main_v83⟫ = (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (Cert.Sage.csq (F := Ideal) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7))) (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7)))))) :=
  (readH (RG m c)).trans (congr (congr (congr (congrArg (Cert.Sage.agg (F := Ideal)) ((keepG (RF m c) main_v1 (by decide)).trans ((keepF (RE m c) main_v1 (by decide)).trans ((keepE (RD m c) main_v1 (by decide)).trans ((keepD (RC m c) main_v1 (by decide)).trans ((keepC (RB m c) main_v1 (by decide)).trans ((keepB (RA m c) main_v1 (by decide)).trans (rowA m c)))))))) ((keepG (RF m c) main_v3 (by decide)).trans ((keepF (RE m c) main_v3 (by decide)).trans ((keepE (RD m c) main_v3 (by decide)).trans ((keepD (RC m c) main_v3 (by decide)).trans ((keepC (RB m c) main_v3 (by decide)).trans ((keepB (RA m c) main_v3 (by decide)).trans (colA m c)))))))) ((keepG (RF m c) main_v14 (by decide)).trans ((keepF (RE m c) main_v14 (by decide)).trans ((keepE (RD m c) main_v14 (by decide)).trans ((keepD (RC m c) main_v14 (by decide)).trans ((keepC (RB m c) main_v14 (by decide)).trans ((keepB (RA m c) main_v14 (by decide)).trans (dinvA m c)))))))) (squareG m c))
/-- The class scores. -/
theorem scoresI : RI m c ⟪main_v95⟫ = Cert.Sage.dense2 (F := Ideal) (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (Cert.Sage.csq (F := Ideal) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7))) (Cert.Sage.agg (F := Ideal) (Cert.Sage.edgeRow0 (F := Ideal) (m ((c.tc : Thread nD τ).loc main_arg7))) (Cert.Sage.edgeRow1 (F := Ideal) (m ((c.tc : Thread nD τ).loc main_arg7))) (Cert.Sage.degInv (F := Ideal) (Cert.Sage.edgeRow0 (F := Ideal) (m ((c.tc : Thread nD τ).loc main_arg7)))) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7)))))) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7))) (transpose S128x40 [1, 0] (m ((c.tc : Thread nD τ).loc main_arg4)) transposes_S40x128_S128x40_1_0) (broadcastInDim S1x40 ![1] bcast_S40_S1x40_1 (m ((c.tc : Thread nD τ).loc main_arg5))) (transpose S128x40 [1, 0] (m ((c.tc : Thread nD τ).loc main_arg6)) transposes_S40x128_S128x40_1_0) :=
  (readI (RH m c)).trans (congr (congr (congr (congr (congrArg (Cert.Sage.dense2 (F := Ideal)) (meanH m c))
    ((keepH (RG m c) main_v55 (by decide)).trans ((keepG (RF m c) main_v55 (by decide)).trans ((keepF (RE m c) main_v55 (by decide)).trans (hiddenE m c)))))
    (congrArg (fun a => transpose S128x40 [1, 0] a transposes_S40x128_S128x40_1_0) ((keepH (RG m c) main_arg4 (by decide)).trans ((keepG (RF m c) main_arg4 (by decide)).trans ((keepF (RE m c) main_arg4 (by decide)).trans ((keepE (RD m c) main_arg4 (by decide)).trans ((keepD (RC m c) main_arg4 (by decide)).trans ((keepC (RB m c) main_arg4 (by decide)).trans ((keepB (RA m c) main_arg4 (by decide)).trans ((keepA (launchContents m c) main_arg4 (by decide)).trans rfl))))))))))
    (congrArg (fun a => broadcastInDim S1x40 ![1] bcast_S40_S1x40_1 a) ((keepH (RG m c) main_arg5 (by decide)).trans ((keepG (RF m c) main_arg5 (by decide)).trans ((keepF (RE m c) main_arg5 (by decide)).trans ((keepE (RD m c) main_arg5 (by decide)).trans ((keepD (RC m c) main_arg5 (by decide)).trans ((keepC (RB m c) main_arg5 (by decide)).trans ((keepB (RA m c) main_arg5 (by decide)).trans ((keepA (launchContents m c) main_arg5 (by decide)).trans rfl))))))))))
    (congrArg (fun a => transpose S128x40 [1, 0] a transposes_S40x128_S128x40_1_0) ((keepH (RG m c) main_arg6 (by decide)).trans ((keepG (RF m c) main_arg6 (by decide)).trans ((keepF (RE m c) main_arg6 (by decide)).trans ((keepE (RD m c) main_arg6 (by decide)).trans ((keepD (RC m c) main_arg6 (by decide)).trans ((keepC (RB m c) main_arg6 (by decide)).trans ((keepB (RA m c) main_arg6 (by decide)).trans ((keepA (launchContents m c) main_arg6 (by decide)).trans rfl))))))))))

/-- THE RESULT: the fold read at the result buffer is the specification's network of the launch's argument arrays, each
    bias broadcast to a row. -/
theorem result : after (ops (F := Ideal)) (launchContents m c) ⟪main_v96⟫
    = Cert.Sage.output (F := Ideal) (Cert.Sage.hidden (F := Ideal) (m ((c.tc : Thread nD τ).loc main_arg0)) (m ((c.tc : Thread nD τ).loc main_arg1)) (broadcastInDim S1x128 ![1] bcast_S128_S1x128_1 (m ((c.tc : Thread nD τ).loc main_arg2))) (m ((c.tc : Thread nD τ).loc main_arg3)) (m ((c.tc : Thread nD τ).loc main_arg7))) (m ((c.tc : Thread nD τ).loc main_arg4)) (broadcastInDim S1x40 ![1] bcast_S40_S1x40_1 (m ((c.tc : Thread nD τ).loc main_arg5))) (m ((c.tc : Thread nD τ).loc main_arg6)) (m ((c.tc : Thread nD τ).loc main_arg7)) := by
  rw [fold_eq]
  exact (readJ (RI m c)).trans (congrArg (Cert.Sage.logSoftmax (F := Ideal)) (scoresI m c))

end Walk

end Cert.ReferenceIdeal.Chain

end
-- ==== Proof.BiasRow.lean ====
/-
  The bias as a row: the kernel's program reshapes the bias vector [n] to [1, n], the reference broadcasts it to [1, n]; both
  rows hold the vector's entry c at (0, c).
-/
import proofs.«114936_j57904749084729_1_alg».proof.Proof.Gen.KernelIdeal
import proofs.«114936_j57904749084729_1_alg».proof.Proof.Gen.ReferenceIdeal
import Idealize.ShloMosaic.Lib.Pipeline.Value
import Idealize.ShloMosaic.Lib.ValueIdx

noncomputable section

namespace Cert.BiasRow

open Idealize.ShloMosaic Idealize.ShloMosaic.ValueIdx
open Cert.KernelIdeal

variable {α : Type}

theorem row128 (x : S128.Idx → α) :
    shapeCast S1x128 x Cert.KernelIdeal.Gen.shapeCasts_S128_S1x128 = broadcastInDim S1x128 ![1] Cert.ReferenceIdeal.Gen.bcast_S128_S1x128_1 x := by
  funext i
  have h0 : (i 0).val < 1 := idx2_lt0 i
  refine (shapeCast_apply x _ i (ix1 (⟨(i 1).val, idx2_lt1 i⟩ : Fin 128)) ?_).trans
    (broadcastInDim_apply _ _ x i (ix1 (⟨(i 1).val, idx2_lt1 i⟩ : Fin 128)) (fun a => by match a with | ⟨0, _⟩ => rfl)).symm
  rw [Shape.rowMajor_val_one, Shape.rowMajor_val_two]
  show (i 1).val = (i 0).val * 128 + (i 1).val
  omega

theorem row40 (x : S40.Idx → α) :
    shapeCast S1x40 x Cert.KernelIdeal.Gen.shapeCasts_S40_S1x40 = broadcastInDim S1x40 ![1] Cert.ReferenceIdeal.Gen.bcast_S40_S1x40_1 x := by
  funext i
  have h0 : (i 0).val < 1 := idx2_lt0 i
  refine (shapeCast_apply x _ i (ix1 (⟨(i 1).val, idx2_lt1 i⟩ : Fin 40)) ?_).trans
    (broadcastInDim_apply _ _ x i (ix1 (⟨(i 1).val, idx2_lt1 i⟩ : Fin 40)) (fun a => by match a with | ⟨0, _⟩ => rfl)).symm
  rw [Shape.rowMajor_val_one, Shape.rowMajor_val_two]
  show (i 1).val = (i 0).val * 40 + (i 1).val
  omega

end Cert.BiasRow

end
-- ==== Proof.lean ====
/-
  The certificate of the two-layer mean/variance graph convolution: the Pallas kernel (five regions — centred square, dense
  step, centred square, dense step, log-softmax — among host stretches that gather and scatter along the edges) against its
  jnp reference, at the extended reals.
  Frames: the two kernels' are the generated several-region frames; the reference's is its run with the result dropped.
  The idealization rewrote nothing, so there is nothing to preserve.
  Values: each region's output array is a whole-array function of its input arrays, because a result row depends only on the
  same rows of the inputs and the twenty row blocks fill the array; the host stretches of both programs apply the same
  operations; so both results are the one network of the specification, applied to the same arguments. The two programs
  differ only in the order of two additions in a dense step and in how the bias vector is made a row, neither of which
  changes a value over the extended reals. The precondition is never used.
-/
import proofs.«114936_j57904749084729_1_alg».proof.Defs
import proofs.«114936_j57904749084729_1_alg».proof.Proof.Gen.Kernel
import proofs.«114936_j57904749084729_1_alg».proof.Proof.Gen.Kernel.Skeleton
import proofs.«114936_j57904749084729_1_alg».proof.Proof.Gen.Kernel.Launch
import proofs.«114936_j57904749084729_1_alg».proof.Proof.Gen.Kernel.Points
import proofs.«114936_j57904749084729_1_alg».proof.Proof.Gen.Kernel.Frame
import proofs.«114936_j57904749084729_1_alg».proof.Proof.Gen.KernelIdeal
import proofs.«114936_j57904749084729_1_alg».proof.Proof.Gen.KernelIdeal.Skeleton
import proofs.«114936_j57904749084729_1_alg».proof.Proof.Gen.KernelIdeal.Launch
import proofs.«114936_j57904749084729_1_alg».proof.Proof.Gen.KernelIdeal.Points
import proofs.«114936_j57904749084729_1_alg».proof.Proof.Gen.KernelIdeal.Frame
import proofs.«114936_j57904749084729_1_alg».proof.Proof.Gen.ReferenceIdeal
import proofs.«114936_j57904749084729_1_alg».proof.Proof.Gen.Pre_finite_inputs
import proofs.«114936_j57904749084729_1_alg».proof.Proof.ResultRun
import proofs.«114936_j57904749084729_1_alg».proof.Proof.Chain
import proofs.«114936_j57904749084729_1_alg».proof.Proof.RefRun
import proofs.«114936_j57904749084729_1_alg».proof.Proof.RefChain
import proofs.«114936_j57904749084729_1_alg».proof.Proof.BiasRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the result array at the specification's network of the argument arrays. -/
theorem algebraic : Cert.algebraic_KernelIdeal_ReferenceIdeal := by
  intro m ρ m' ρ' _ hagree
  refine ⟨fun c => Cert.KernelIdeal.Gen.W11 m ρ c (Proc.devRef .tc Cert.KernelIdeal.main_v77), Cert.KernelIdeal.ResultRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  show _ = Cert.KernelIdeal.Gen.W11 m ρ c (Proc.devRef .tc Cert.KernelIdeal.main_v77)
  rw [Cert.ReferenceIdeal.Chain.result m' c, Cert.KernelIdeal.Chain.result m ρ c, h0, h1, h2, h3, h4, h5, h6, h7,
    Cert.BiasRow.row128, Cert.BiasRow.row40]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
